-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S1600000x128 .f32) (main_arg2 : FVec F S1600000 .f32) (main_arg3 : FVec F S128x128 .f32) (main_arg4 : FVec F S128 .f32) (main_arg5 : FVec F S128x128 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x129 : Shape := ⟨2, ![1600000, 129]⟩
abbrev S100000x129 : Shape := ⟨2, ![100000, 129]⟩
abbrev S100000x1 : Shape := ⟨2, ![100000, 1]⟩
abbrev S100000 : Shape := ⟨1, ![100000]⟩
abbrev S100000x3 : Shape := ⟨2, ![100000, 3]⟩
abbrev S1x128 : Shape := ⟨2, ![1, 128]⟩
abbrev S4000x128 : Shape := ⟨2, ![4000, 128]⟩
abbrev S4000x3 : Shape := ⟨2, ![4000, 3]⟩
abbrev S4000x1 : Shape := ⟨2, ![4000, 1]⟩

abbrev nBuf : Space → Nat
  | .hbm => 48
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S1600000x1, .f32⟩
  | .hbm, ⟨23, _⟩ => ⟨S1600000x129, .f32⟩
  | .hbm, ⟨24, _⟩ => ⟨S_, .f32⟩
  | .hbm, ⟨25, _⟩ => ⟨S100000x129, .f32⟩
  | .hbm, ⟨26, _⟩ => ⟨S1600000x1, .i32⟩
  | .hbm, ⟨27, _⟩ => ⟨S100000x129, .f32⟩
  | .hbm, ⟨28, _⟩ => ⟨S100000x1, .f32⟩
  | .hbm, ⟨29, _⟩ => ⟨S100000, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x1, .f32⟩
  | .hbm, ⟨44, _⟩ => ⟨S100000x3, .f32⟩
  | .hbm, ⟨45, _⟩ => ⟨S1x128, .f32⟩
  | .hbm, ⟨46, _⟩ => ⟨S1x128, .f32⟩
  | .hbm, ⟨47, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x3, .f32⟩
  | .local _ .vmem, ⟨7, _⟩ => ⟨S4000x3, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S1600000x1 : S_.BroadcastsInDim S1600000x1 (![] : Fin 0 → Fin S1600000x1.rank)
  concatenates_S1600000x1_S1600000x128_S1600000x129_d1 : Shape.Concatenates [S1600000x1, S1600000x128] S1600000x129 1
  bcast_S_S100000x129 : S_.BroadcastsInDim S100000x129 (![] : Fin 0 → Fin S100000x129.rank)
  slices_S100000x129_S100000x1_0_0 : S100000x129.Slices ![0, 0] S100000x1
  shapeCasts_S100000x1_S100000 : S100000x1.ShapeCasts S100000
  slices_S100000x129_S100000x128_0_1 : S100000x129.Slices ![0, 1] S100000x128
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  concatenates_S100000x1_S100000x1_S100000x1_S100000x3_d1 : Shape.Concatenates [S100000x1, S100000x1, S100000x1] S100000x3 1
  shapeCasts_S128_S1x128 : S128.ShapeCasts S1x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x129_S1600000x1_S1600000x129_1_0_0_1_wf : ScatterDims.WF S100000x129 S1600000x1 S1600000x129 [1] [0] [0] 1
  scatter_S100000x128_S1600000x1_S1600000x128_1_0_0_1_wf : ScatterDims.WF S100000x128 S1600000x1 S1600000x128 [1] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S100000x3.size a
  hwx0_3 : ∀ i : grid0.Coords, EltTy.bits .f32 = 32 ∨ (Rect.block (s := S100000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x129_S1600000x1_S1600000x129_1_0_0_1 : ScatterDims S100000x129 S1600000x1 S1600000x129 where
  updateWindowDims := [1]
  insertedWindowDims := [0]
  scatterDimsToOperandDims := [0]
  indexVectorDim := 1
  wf := scatter_S100000x129_S1600000x1_S1600000x129_1_0_0_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S128x128, .f32⟩
  | .hbm, ⟨19, _⟩ => ⟨S100000x128, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S128x128, .f32⟩
  | .hbm, ⟨50, _⟩ => ⟨S1600000x128, .f32⟩
  | .hbm, ⟨51, _⟩ => ⟨S1x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1600000x128_S128x128_S1600000x128_1_0_0_1_n_n_wf : DotDims.WF S1600000x128 S128x128 S1600000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf

class Facts : Prop extends Facts₀ where

variable [Facts]
-- ==== Proof.FrameK.lean ====
/-
  The frame run of `Kernel`: @main's host operations up to its one region, the region's launch, and what every array
  holds at the end.

  @main is a straight line of host operations (the neighbour gather, the two segment sums, the per-node scales) followed
  by one pipelined region over 25 grid points. At each point the body loads eight input blocks — 4000 rows of the node
  features, of the summed messages and of the summed edge features, the three scale columns of those rows, and the two
  weight matrices and two bias rows whole —, computes one value of them (`Gen.k0_pay1`) and stores it over the whole
  output block. So after the body the output's buffer holds exactly that value of the input blocks at the point
  (`out0_8`), every input buffer still holds its block, and the run ends with the result array assembled from the 25
  written-back blocks (`Dat.arrAt`) and every other array as the region found it. Read at the argument arrays this is
  the frame: every execution ends, nothing faults, the arguments are unchanged.
-/
import proofs.«129473_j6605659701688_2_alg».proof.Proof.Gen.Kernel.Launch
import proofs.«129473_j6605659701688_2_alg».proof.Proof.Gen.Kernel.Skeleton
import proofs.«129473_j6605659701688_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (unfetched, its block index
    has not moved), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (unfetched, its block index
    has not moved), for any proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (unfetched, its block index
    has not moved), for any proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (unfetched, its block index
    has not moved), for any proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (unfetched, its block index
    has not moved), for any proof data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (unfetched, its block index
    has not moved), for any proof data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (unfetched, its block index
    has not moved), for any proof data over the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (unfetched, its block index
    has not moved), for any proof data over the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For proof data over the region-entry arrays, a run to the library's frame post, read at the argument arrays — one a
    window stages is an input and ends as the region found it, one no window stages ends as the region found it, and
    the region found each as launched —, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats 0 c).arrAt_in 4 rfl _).trans ((hA c 4).trans (V_main_arg3 m c))),
      ((h c).2 main_arg4 (Pipeline.mem_restRefs_of main_arg4 (by decide) (by decide))).trans (V_main_arg4 m c),
      ((h c).1 6).trans (((dats 0 c).arrAt_in 6 rfl _).trans ((hA c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev rA : Rect S4000x128 := Rect.unit (s := S4000x128) ![0, 0] S4000x128.size inb_S4000x128_S4000x128_0_0
abbrev rS : Rect S4000x3 := Rect.unit (s := S4000x3) ![0, 0] S4000x3.size inb_S4000x3_S4000x3_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-! ## What the body leaves in the output window's buffer -/

/-- The output buffer after the body, from the input windows' blocks: its one store, of the body's value of the eight
    loads, over the whole block. -/
def out0_8 (x0 : Vec F S4000x128 .f32) (x1 : Vec F S4000x128 .f32) (x2 : Vec F S4000x128 .f32) (x3 : Vec F S4000x3 .f32)
    (x4 : Vec F S128x128 .f32) (x5 : Vec F S1x128 .f32) (x6 : Vec F S128x128 .f32) (x7 : Vec F S1x128 .f32) : Vec F S4000x128 .f32 :=
  View.canon [⟨rA, k0_pay1 (View.ld x3 rS) (View.ld x1 rA) (View.ld x0 rA) (View.ld x4 rW) (View.ld x5 rB) (View.ld x2 rA) (View.ld x6 rW) (View.ld x7 rB)⟩]

/-- The one store covers the buffer. -/
theorem cover0_8 (p0 : Vec F S4000x128 .f32) (y : S4000x128.Idx) :
    ∃ pc ∈ ([⟨rA, p0⟩] : List (View.Piece (Elt F) S4000x128 .f32)), y ∈ pc.1.set :=
  View.cover_of_tiled [⟨rA, p0⟩] S4000x128.size (by rfl) y

/-! ## The body's triple -/

set_option maxHeartbeats 1000000 in
/-- The body on whole buffers, the inputs' at contents `xW` and the output's at anything, runs to the continuation
    holding the inputs' as they were and the output's at `out0_8` of the inputs'. -/
theorem sound_kernel (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x3 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S4000x128 .f32) (harg9 : arg9.IsWhole)
    (x0 : Vec F S4000x128 .f32) (x1 : Vec F S4000x128 .f32) (x2 : Vec F S4000x128 .f32) (x3 : Vec F S4000x3 .f32)
    (x4 : Vec F S128x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__node_fuse_kernel i arg1 harg1 arg2 harg2 arg3 harg3 arg4 harg4 arg5 harg5 arg6 harg6 arg7 harg7 arg8 harg8 arg9 harg9) K := by
  simp only [cc0__node_fuse_kernel_eq_skeleton]; unfold cc0__node_fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the pipeline on core `c`: the arrays as the region finds them; after the body at point `t` each
    input's buffer at its block and the output's at `out0_8` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.FrameKI.lean ====
/-
  The frame run of `KernelIdeal`: @main's host operations up to its one region, the region's launch, and what every array
  holds at the end.

  @main is a straight line of host operations (the neighbour gather, the two segment sums, the per-node scales) followed
  by one pipelined region over 25 grid points. At each point the body loads eight input blocks — 4000 rows of the node
  features, of the summed messages and of the summed edge features, the three scale columns of those rows, and the two
  weight matrices and two bias rows whole —, computes one value of them (`Gen.k0_pay1`) and stores it over the whole
  output block. So after the body the output's buffer holds exactly that value of the input blocks at the point
  (`out0_8`), every input buffer still holds its block, and the run ends with the result array assembled from the 25
  written-back blocks (`Dat.arrAt`) and every other array as the region found it. Read at the argument arrays this is
  the frame: every execution ends, nothing faults, the arguments are unchanged.
-/
import proofs.«129473_j6605659701688_2_alg».proof.Proof.Gen.KernelIdeal.Launch
import proofs.«129473_j6605659701688_2_alg».proof.Proof.Gen.KernelIdeal.Skeleton
import proofs.«129473_j6605659701688_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (unfetched, its block index
    has not moved), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not (unfetched, its block index
    has not moved), for any proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not (unfetched, its block index
    has not moved), for any proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not (unfetched, its block index
    has not moved), for any proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not (unfetched, its block index
    has not moved), for any proof data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not (unfetched, its block index
    has not moved), for any proof data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not (unfetched, its block index
    has not moved), for any proof data over the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not (unfetched, its block index
    has not moved), for any proof data over the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For proof data over the region-entry arrays, a run to the library's frame post, read at the argument arrays — one a
    window stages is an input and ends as the region found it, one no window stages ends as the region found it, and
    the region found each as launched —, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats 0 c).arrAt_in 4 rfl _).trans ((hA c 4).trans (V_main_arg3 m c))),
      ((h c).2 main_arg4 (Pipeline.mem_restRefs_of main_arg4 (by decide) (by decide))).trans (V_main_arg4 m c),
      ((h c).1 6).trans (((dats 0 c).arrAt_in 6 rfl _).trans ((hA c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev rA : Rect S4000x128 := Rect.unit (s := S4000x128) ![0, 0] S4000x128.size inb_S4000x128_S4000x128_0_0
abbrev rS : Rect S4000x3 := Rect.unit (s := S4000x3) ![0, 0] S4000x3.size inb_S4000x3_S4000x3_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-! ## What the body leaves in the output window's buffer -/

/-- The output buffer after the body, from the input windows' blocks: its one store, of the body's value of the eight
    loads, over the whole block. -/
def out0_8 (x0 : Vec F S4000x128 .f32) (x1 : Vec F S4000x128 .f32) (x2 : Vec F S4000x128 .f32) (x3 : Vec F S4000x3 .f32)
    (x4 : Vec F S128x128 .f32) (x5 : Vec F S1x128 .f32) (x6 : Vec F S128x128 .f32) (x7 : Vec F S1x128 .f32) : Vec F S4000x128 .f32 :=
  View.canon [⟨rA, k0_pay1 (View.ld x3 rS) (View.ld x1 rA) (View.ld x0 rA) (View.ld x4 rW) (View.ld x5 rB) (View.ld x2 rA) (View.ld x6 rW) (View.ld x7 rB)⟩]

/-- The one store covers the buffer. -/
theorem cover0_8 (p0 : Vec F S4000x128 .f32) (y : S4000x128.Idx) :
    ∃ pc ∈ ([⟨rA, p0⟩] : List (View.Piece (Elt F) S4000x128 .f32)), y ∈ pc.1.set :=
  View.cover_of_tiled [⟨rA, p0⟩] S4000x128.size (by rfl) y

/-! ## The body's triple -/

set_option maxHeartbeats 1000000 in
/-- The body on whole buffers, the inputs' at contents `xW` and the output's at anything, runs to the continuation
    holding the inputs' as they were and the output's at `out0_8` of the inputs'. -/
theorem sound_kernel (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x3 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S4000x128 .f32) (harg9 : arg9.IsWhole)
    (x0 : Vec F S4000x128 .f32) (x1 : Vec F S4000x128 .f32) (x2 : Vec F S4000x128 .f32) (x3 : Vec F S4000x3 .f32)
    (x4 : Vec F S128x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__node_fuse_kernel i arg1 harg1 arg2 harg2 arg3 harg3 arg4 harg4 arg5 harg5 arg6 harg6 arg7 harg7 arg8 harg8 arg9 harg9) K := by
  simp only [cc0__node_fuse_kernel_eq_skeleton]; unfold cc0__node_fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the pipeline on core `c`: the arrays as the region finds them; after the body at point `t` each
    input's buffer at its block and the output's at `out0_8` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.HostVals.lean ====
/-
  What the host operations before the region leave in the five arrays the region stages that are no argument: the
  summed messages, the summed edge features, the three per-node scale columns, and the two bias rows as one-row
  matrices — each as a term of the argument arrays.
-/
import proofs.«129473_j6605659701688_2_alg».proof.Proof.FrameKI
import Idealize.ShloMosaic.Lib.StableHlo.Run

set_option maxRecDepth 16384

noncomputable section

namespace Cert.KernelIdeal.HostVals

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

/-- The source node of each edge as a column of start indices, a negative index counted from the end. -/
def srcIdx (x7 : IVec S1600000 32) : IVec S1600000x1 32 :=
  broadcastInDim S1600000x1 ![0] bcast_S1600000_S1600000x1_0
    (select (cmpi .slt x7 (broadcastInDim S1600000 ![] bcast_S_S1600000 (constantI S_ 32 0#32)))
      (addi x7 (broadcastInDim S1600000 ![] bcast_S_S1600000 (constantI S_ 32 100000#32))) x7)

/-- The messages: each edge's source row times the edge's weight. -/
def msg (x0 : FVec F S100000x128 .f32) (x2 : FVec F S1600000 .f32) (x7 : IVec S1600000 32) : FVec F S1600000x128 .f32 :=
  mulf (Host.gather gather_S100000x128_S1600000x1_S1600000x128_1_0_n_n_0_1_1128 x0 (srcIdx x7))
    (broadcastInDim S1600000x128 ![0, 1] bcast_S1600000x1_S1600000x128_0_1 (broadcastInDim S1600000x1 ![0] bcast_S1600000_S1600000x1_0 x2))

/-- The destination node of each edge as a column of scatter indices. -/
def dstIdx (x8 : IVec S1600000 32) : IVec S1600000x1 32 := broadcastInDim S1600000x1 ![0] bcast_S1600000_S1600000x1_0 x8

/-- A column of ones beside the messages. -/
def onesMsg (x0 : FVec F S100000x128 .f32) (x2 : FVec F S1600000 .f32) (x7 : IVec S1600000 32) : FVec F S1600000x129 .f32 :=
  concatenate S1600000x129 1 [⟨S1600000x1, broadcastInDim S1600000x1 ![] bcast_S_S1600000x1 (constant S_ .f32 0x3F800000#32)⟩, ⟨S1600000x128, msg x0 x2 x7⟩]
    concatenates_S1600000x1_S1600000x128_S1600000x129_d1

/-- Its segment sum by destination: column 0 the in-degree, columns 1 to 128 the summed messages. -/
def segAll (x0 : FVec F S100000x128 .f32) (x2 : FVec F S1600000 .f32) (x7 x8 : IVec S1600000 32) : FVec F S100000x129 .f32 :=
  Host.scatterAdd scatter_S100000x129_S1600000x1_S1600000x129_1_0_0_1 (broadcastInDim S100000x129 ![] bcast_S_S100000x129 (constant S_ .f32 0x00000000#32))
    (dstIdx x8) (onesMsg x0 x2 x7)

/-- The in-degree. -/
def inDeg (x0 : FVec F S100000x128 .f32) (x2 : FVec F S1600000 .f32) (x7 x8 : IVec S1600000 32) : FVec F S100000 .f32 :=
  shapeCast S100000 (extractStridedSlice S100000x1 ![0, 0] (segAll x0 x2 x7 x8) slices_S100000x129_S100000x1_0_0) shapeCasts_S100000x1_S100000

/-- The summed messages. -/
def neigh (x0 : FVec F S100000x128 .f32) (x2 : FVec F S1600000 .f32) (x7 x8 : IVec S1600000 32) : FVec F S100000x128 .f32 :=
  extractStridedSlice S100000x128 ![0, 1] (segAll x0 x2 x7 x8) slices_S100000x129_S100000x128_0_1

/-- The summed edge features. -/
def es (x1 : FVec F S1600000x128 .f32) (x8 : IVec S1600000 32) : FVec F S100000x128 .f32 :=
  Host.scatterAdd scatter_S100000x128_S1600000x1_S1600000x128_1_0_0_1 (broadcastInDim S100000x128 ![] bcast_S_S100000x128 (constant S_ .f32 0x00000000#32))
    (dstIdx x8) x1

/-- Three columns side by side. -/
def cols3 (a b c : FVec F S100000x1 .f32) : FVec F S100000x3 .f32 :=
  concatenate S100000x3 1 [⟨S100000x1, a⟩, ⟨S100000x1, b⟩, ⟨S100000x1, c⟩] concatenates_S100000x1_S100000x1_S100000x1_S100000x3_d1

/-- In-degree plus one, as a column. -/
def degCol (x0 : FVec F S100000x128 .f32) (x2 : FVec F S1600000 .f32) (x7 x8 : IVec S1600000 32) : FVec F S100000x1 .f32 :=
  shapeCast S100000x1 (addf (inDeg x0 x2 x7 x8) (broadcastInDim S100000 ![] bcast_S_S100000 (constant S_ .f32 0x3F800000#32))) shapeCasts_S100000_S100000x1

/-- The larger of in-degree and one, as a column. -/
def meanCol (x0 : FVec F S100000x128 .f32) (x2 : FVec F S1600000 .f32) (x7 x8 : IVec S1600000 32) : FVec F S100000x1 .f32 :=
  shapeCast S100000x1 (maximumf (inDeg x0 x2 x7 x8) (broadcastInDim S100000 ![] bcast_S_S100000 (constant S_ .f32 0x3F800000#32))) shapeCasts_S100000_S100000x1

/-- In-degree, as a column. -/
def cntCol (x0 : FVec F S100000x128 .f32) (x2 : FVec F S1600000 .f32) (x7 x8 : IVec S1600000 32) : FVec F S100000x1 .f32 :=
  shapeCast S100000x1 (inDeg x0 x2 x7 x8) shapeCasts_S100000_S100000x1

/-- The three scale columns: in-degree plus one, the larger of in-degree and one, in-degree. -/
def scales (x0 : FVec F S100000x128 .f32) (x2 : FVec F S1600000 .f32) (x7 x8 : IVec S1600000 32) : FVec F S100000x3 .f32 :=
  cols3 (degCol x0 x2 x7 x8) (meanCol x0 x2 x7 x8) (cntCol x0 x2 x7 x8)

/-- A three-operand host operation's result, its function given as one of the three operands' contents, with each
    operand's contents at its own reference. -/
theorem nary3_result {τ : Topo} {sig : RefSig} {Val : EltTy → Type} {x a b y : Ref sig .tc}
    (g : x.ty.Contents Val → a.ty.Contents Val → b.ty.Contents Val → y.ty.Contents Val) (hxs hy)
    (W : Valuation τ sig Val) :
    (nary (τ := τ) ![x, a, b] y (fun u => g (u 0) (u 1) (u 2)) hxs hy).result W (Proc.devRef .tc y)
      = g (W (Proc.devRef .tc x)) (W (Proc.devRef .tc a)) (W (Proc.devRef .tc b)) := by
  rw [nary_result]; rfl

variable (m : (ℓ : Loc nD τ sig) → Buf (Elt F) ℓ)

theorem V_neigh (c : Dev nD) : (V m c main_v17 : S100000x128.Idx → F .f32)
    = neigh (m ((c : Thread nD τ).loc main_arg0)) (m ((c : Thread nD τ).loc main_arg2)) (m ((c : Thread nD τ).loc main_arg7)) (m ((c : Thread nD τ).loc main_arg8)) := by
  dsimp only [V, hostOps0]
  after_results_simp
  rfl

theorem V_es (c : Dev nD) : (V m c main_v20 : S100000x128.Idx → F .f32)
    = es (m ((c : Thread nD τ).loc main_arg1)) (m ((c : Thread nD τ).loc main_arg8)) := by
  dsimp only [V, hostOps0]
  after_results
  rfl

theorem V_scales (c : Dev nD) : (V m c main_v28 : S100000x3.Idx → F .f32)
    = scales (m ((c : Thread nD τ).loc main_arg0)) (m ((c : Thread nD τ).loc main_arg2)) (m ((c : Thread nD τ).loc main_arg7)) (m ((c : Thread nD τ).loc main_arg8)) := by
  dsimp only [V, hostOps0]
  simp (disch := decide) only [after_cons, after_nil, reshape_result_ne']
  refine (nary3_result (τ := τ) (Val := Elt F) (x := main_v23) (a := main_v26) (b := main_v27) (y := main_v28) cols3 _ _ _).trans ?_
  unfold scales
  refine congr (congr (congrArg _ ?_) ?_) ?_
  · simp (disch := decide) only [nullary_result', unary_result', binary_result', ternary_result', reshape_result',
      nullary_result_ne', unary_result_ne', binary_result_ne', ternary_result_ne', reshape_result_ne']
    rfl
  · simp (disch := decide) only [nullary_result', unary_result', binary_result', ternary_result', reshape_result',
      nullary_result_ne', unary_result_ne', binary_result_ne', ternary_result_ne', reshape_result_ne']
    rfl
  · simp (disch := decide) only [nullary_result', unary_result', binary_result', ternary_result', reshape_result',
      nullary_result_ne', unary_result_ne', binary_result_ne', ternary_result_ne', reshape_result_ne']
    rfl

theorem V_bn (c : Dev nD) : (V m c main_v29 : S1x128.Idx → F .f32)
    = shapeCast S1x128 (m ((c : Thread nD τ).loc main_arg4)) shapeCasts_S128_S1x128 := by
  dsimp only [V, hostOps0]
  after_results
  rfl

theorem V_be (c : Dev nD) : (V m c main_v30 : S1x128.Idx → F .f32)
    = shapeCast S1x128 (m ((c : Thread nD τ).loc main_arg6)) shapeCasts_S128_S1x128 := by
  dsimp only [V, hostOps0]
  after_results
  rfl

end Cert.KernelIdeal.HostVals

end
-- ==== Proof.SageAlgebra.lean ====
/-
  The algebra that joins two ways of computing one output element of a mean-aggregating graph layer with edge
  features, at one node and one output column.

  Write `S k = ∑ e ∈ H, msg e k` for the sum of the neighbour messages arriving at the node (`H` is the set of
  incoming edges), `deg = |H|` for their number, `x` for the node's own feature row, `w`, `v` for one column of the
  two weight matrices and `bn`, `be` for the two biases' entries at that column. One side forms
  `((S + 2x)·w)/(deg+1) + bn + ((∑ e, ef e)·v + deg·be)/max(deg,1)`; the other forms
  `((S + x)/(deg+1))·w + bn + (x·w)/(deg+1) + (∑ e, (ef e·v + be))/max(deg,1)`. Over the reals the two agree by
  distributivity and by exchanging the order of two finite sums. On the extended reals distributivity fails at the
  infinities, so every quantity is assumed real, the expression is pulled back to the reals, and the identity is
  proved there. The divisors `deg + 1` and `max deg 1` are positive reals, so each quotient is the product with a
  real reciprocal.
-/
import Idealize.ShloMosaic.PureOps.Ideal

namespace Cert.SageAlgebra

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Counting a finite set by adding one per element, started from zero, gives its cardinality as a real. -/
theorem count_coe {ι : Type*} (H : Finset ι) : (0 + ∑ _e ∈ H, (1 : EReal)) = ((H.card : ℝ) : EReal) := by
  rw [zero_add, ← EReal.coe_one, ← coe_sum, Finset.sum_const, nsmul_eq_mul, mul_one]

/-- The two forms of one output element of the layer agree when every quantity is real. -/
theorem node_identity {ι κ : Type} [DecidableEq ι] [Fintype κ] (H : Finset ι)
    (msg ef : ι → κ → EReal) (x w v : κ → EReal) (bn be : EReal)
    (hmsg : ∀ e k, ∃ r : ℝ, msg e k = (r : EReal)) (hef : ∀ e k, ∃ r : ℝ, ef e k = (r : EReal))
    (hx : ∀ k, ∃ r : ℝ, x k = (r : EReal)) (hw : ∀ k, ∃ r : ℝ, w k = (r : EReal)) (hv : ∀ k, ∃ r : ℝ, v k = (r : EReal))
    (hbn : ∃ r : ℝ, bn = (r : EReal)) (hbe : ∃ r : ℝ, be = (r : EReal)) :
    (Ideal.div (∑ k, ((0 + ∑ e ∈ H, msg e k) + (2 : EReal) * x k) * w k) ((0 + ∑ _e ∈ H, (1 : EReal)) + 1) + bn)
        + Ideal.div ((∑ k, (0 + ∑ e ∈ H, ef e k) * v k) + (0 + ∑ _e ∈ H, (1 : EReal)) * be) (max (0 + ∑ _e ∈ H, (1 : EReal)) 1)
      = (((∑ k, Ideal.div ((0 + ∑ e ∈ H, msg e k) + x k) ((0 + ∑ _e ∈ H, (1 : EReal)) + 1) * w k) + bn)
            + Ideal.div (∑ k, x k * w k) ((0 + ∑ _e ∈ H, (1 : EReal)) + 1))
        + Ideal.div (0 + ∑ e ∈ H, ((∑ k, ef e k * v k) + be)) (max (0 + ∑ _e ∈ H, (1 : EReal)) 1) := by
  choose msgR hmsgR using hmsg
  choose efR hefR using hef
  choose xR hxR using hx
  choose wR hwR using hw
  choose vR hvR using hv
  obtain ⟨bnR, rfl⟩ := hbn
  obtain ⟨beR, rfl⟩ := hbe
  -- the divisors are positive reals
  have hD : ((H.card : ℝ) + 1) ≠ 0 := by positivity
  have hM : (max (H.card : ℝ) 1) ≠ 0 := ne_of_gt (lt_of_lt_of_le one_pos (le_max_right _ _))
  have h1 : (((H.card : ℝ) : EReal)) + 1 = (((H.card : ℝ) + 1 : ℝ) : EReal) := by rw [EReal.coe_add, EReal.coe_one]
  have hmax : max (((H.card : ℝ) : EReal)) 1 = ((max (H.card : ℝ) 1 : ℝ) : EReal) := by
    rw [← EReal.coe_one]; exact (EReal.coe_strictMono.monotone.map_max).symm
  have h2 : (2 : EReal) = ((2 : ℝ) : EReal) := rfl
  rw [count_coe H, h1, hmax]
  simp only [hmsgR, hefR, hxR, hwR, hvR, Ideal.div_coe hD, Ideal.div_coe hM]
  generalize (1 / ((H.card : ℝ) + 1) : ℝ) = a
  generalize (1 / max (H.card : ℝ) 1 : ℝ) = b
  simp only [zero_add, h2, ← EReal.coe_mul, ← EReal.coe_add, ← coe_sum]
  rw [EReal.coe_eq_coe_iff]
  -- the identity over the reals
  have e1 : (∑ k, ((∑ e ∈ H, msgR e k) + 2 * xR k) * wR k) * a
      = (∑ k, ((∑ e ∈ H, msgR e k) + xR k) * a * wR k) + (∑ k, xR k * wR k) * a := by
    rw [Finset.sum_mul, Finset.sum_mul, ← Finset.sum_add_distrib]
    exact Finset.sum_congr rfl fun k _ => by ring
  have e2 : (∑ e ∈ H, ((∑ k, efR e k * vR k) + beR))
      = (∑ k, (∑ e ∈ H, efR e k) * vR k) + (H.card : ℝ) * beR := by
    rw [Finset.sum_add_distrib, Finset.sum_const, nsmul_eq_mul, Finset.sum_comm]
    congr 1
    exact Finset.sum_congr rfl fun k _ => (Finset.sum_mul _ _ _).symm
  rw [e1, e2]
  ring

end Cert.SageAlgebra
-- ==== Proof.Spec.lean ====
/-
  The value both programs compute, as one function of the argument arrays, and the law that joins the two forms.

  A node `n` collects the edges that point at it: `hit dst n`, the edges `e` whose destination index, read as a signed
  integer, is `n` (an edge whose index names no node contributes to none). With `deg` their number, `neigh` the sum of
  their messages and `es` the sum of their edge features, the fused form of output entry `(n, q)` is
    `((neigh + 2·x)·Wn[q]) / (deg + 1) + bn[q] + (es·We[q] + deg·be[q]) / max(deg, 1)`
  (`x` the node's own features, `·` the inner product over the 128 features), and the layer-by-layer form is
    `(((neigh + x) / (deg + 1))·Wn[q] + bn[q] + (x·Wn[q]) / (deg + 1)) + (Σ_e (ef_e·We[q] + be[q])) / max(deg, 1)`.
  They agree when every quantity is a real number: the quotient by the positive real `deg + 1` moves across the inner
  product, the two inner products with `Wn[q]` add up, the sum over the edges exchanges with the inner product, and a
  constant summed over the edges is `deg` times it.
-/
import proofs.«129473_j6605659701688_2_alg».proof.Proof.SageAlgebra
import Idealize.ShloMosaic.PureOps.Ideal
import Idealize.ShloMosaic.Lib.ValueIdx

noncomputable section

namespace Cert.Spec

open Idealize.ShloMosaic Idealize.ShloMosaic.ValueIdx

/-- The edges whose destination index is node `n`. -/
def hit (dst : Fin 1600000 → Int) (n : Fin 100000) : Finset (Fin 1600000) :=
  Finset.univ.filter (fun e : Fin 1600000 => dst e = (n.val : Int))

variable (msg ef : (⟨2, ![1600000, 128]⟩ : Shape).Idx → EReal) (nf : (⟨2, ![100000, 128]⟩ : Shape).Idx → EReal)
  (Wn We : (⟨2, ![128, 128]⟩ : Shape).Idx → EReal) (bn be : (⟨1, ![128]⟩ : Shape).Idx → EReal) (dst : Fin 1600000 → Int)

/-- Output entry `(n, q)` in the fused form. -/
def fused (n : Fin 100000) (q : Fin 128) : EReal :=
  (Ideal.div (∑ k : Fin 128, ((0 + ∑ e ∈ hit dst n, msg (ix2 e k)) + (2 : EReal) * nf (ix2 n k)) * Wn (ix2 q k))
        ((0 + ∑ _e ∈ hit dst n, (1 : EReal)) + 1) + bn (ix1 q))
    + Ideal.div ((∑ k : Fin 128, (0 + ∑ e ∈ hit dst n, ef (ix2 e k)) * We (ix2 q k)) + (0 + ∑ _e ∈ hit dst n, (1 : EReal)) * be (ix1 q))
        (max (0 + ∑ _e ∈ hit dst n, (1 : EReal)) 1)

/-- Output entry `(n, q)` in the layer-by-layer form. -/
def layered (n : Fin 100000) (q : Fin 128) : EReal :=
  (((∑ k : Fin 128, Ideal.div ((0 + ∑ e ∈ hit dst n, msg (ix2 e k)) + nf (ix2 n k)) ((0 + ∑ _e ∈ hit dst n, (1 : EReal)) + 1) * Wn (ix2 q k)) + bn (ix1 q))
      + Ideal.div (∑ k : Fin 128, nf (ix2 n k) * Wn (ix2 q k)) ((0 + ∑ _e ∈ hit dst n, (1 : EReal)) + 1))
    + Ideal.div (0 + ∑ e ∈ hit dst n, ((∑ k : Fin 128, ef (ix2 e k) * We (ix2 q k)) + be (ix1 q))) (max (0 + ∑ _e ∈ hit dst n, (1 : EReal)) 1)

/-- The whole result array, in the fused form. -/
def G : (⟨2, ![100000, 128]⟩ : Shape).Idx → EReal := fun i => fused msg ef nf Wn We bn be dst (i 0) (i 1)

/-- The two forms agree on real data. -/
theorem fused_eq_layered
    (hmsg : ∀ i, ∃ r : ℝ, msg i = (r : EReal)) (hef : ∀ i, ∃ r : ℝ, ef i = (r : EReal)) (hnf : ∀ i, ∃ r : ℝ, nf i = (r : EReal))
    (hWn : ∀ i, ∃ r : ℝ, Wn i = (r : EReal)) (hWe : ∀ i, ∃ r : ℝ, We i = (r : EReal))
    (hbn : ∀ i, ∃ r : ℝ, bn i = (r : EReal)) (hbe : ∀ i, ∃ r : ℝ, be i = (r : EReal)) (n : Fin 100000) (q : Fin 128) :
    fused msg ef nf Wn We bn be dst n q = layered msg ef nf Wn We bn be dst n q :=
  Cert.SageAlgebra.node_identity (hit dst n) (fun e k => msg (ix2 e k)) (fun e k => ef (ix2 e k)) (fun k => nf (ix2 n k))
    (fun k => Wn (ix2 q k)) (fun k => We (ix2 q k)) (bn (ix1 q)) (be (ix1 q))
    (fun e k => hmsg _) (fun e k => hef _) (fun k => hnf _) (fun k => hWn _) (fun k => hWe _) (hbn _) (hbe _)

end Cert.Spec

end
-- ==== Proof.LibScatterRows.lean ====
/-
  A host scatter whose body returns the update (`x.at[idx].set(v)`), read at an index.

  The scatter is a left fold over the update positions in row-major order: a position whose index lands inside the
  operand overwrites that element, a position whose index lands outside is dropped. Read at one operand index `i`
  there are two cases. Either no update position lands at `i`, and the element is the operand's; or some update
  position lands at `i`, and the element is THAT position's update. (Which one, when several land at `i`, is the
  last in row-major order; a user whose colliding updates are equal never needs to know.)

  The second half specialises this to a ROW scatter: operand `[N, C]`, one scalar row index per update row
  (`[K, 1]`), updates `[K, C]`. Update `(k, c)` lands at `(idx[k], c)` when `0 ≤ idx[k] < N` (the index read
  signed, not clamped) and is dropped otherwise, so row `r` of the result is hit exactly by the `k` with `idx[k] = r`.
-/
import Idealize.ShloMosaic.PureOps.ShapeOps
import Idealize.ShloMosaic.PureOps.Dims
import Idealize.ShloMosaic.Lib.ValueIdx

namespace Cert.LibScatterRows

open Idealize.ShloMosaic Idealize.ShloMosaic.ValueIdx

variable {α : Type}

/-- A fold of "overwrite-or-drop" steps read at `i`: the start value if no listed position lands at `i`, else the
    value of some listed position that lands at `i`. -/
theorem foldl_set_cases {β ι : Type} [DecidableEq β] (hit : ι → Option β) (val : ι → α) (stepf : (β → α) → ι → (β → α))
    (hnone : ∀ r n, hit n = none → stepf r n = r)
    (hsome : ∀ r n i, hit n = some i → stepf r n = fun i' => if i' = i then val n else r i')
    (L : List ι) : ∀ (r : β → α) (i : β),
      (L.foldl stepf r i = r i ∧ ∀ n ∈ L, hit n ≠ some i) ∨ ∃ n ∈ L, hit n = some i ∧ L.foldl stepf r i = val n := by
  induction L with
  | nil => intro r i; exact Or.inl ⟨rfl, fun _ h => absurd h List.not_mem_nil⟩
  | cons a L ih =>
    intro r i
    rw [List.foldl_cons]
    rcases ih (stepf r a) i with ⟨hv, hno⟩ | ⟨n, hn, hh, hv⟩
    · cases ha : hit a with
      | none =>
        rw [hnone r a ha] at hv ⊢
        refine Or.inl ⟨hv, fun n hn => ?_⟩
        rcases List.mem_cons.mp hn with rfl | hn
        · rw [ha]; exact fun h => nomatch h
        · exact hno n hn
      | some i0 =>
        by_cases hi : i = i0
        · refine Or.inr ⟨a, List.mem_cons_self, by rw [ha, hi], ?_⟩
          rw [hv, hsome r a i0 ha]
          exact if_pos hi
        · refine Or.inl ⟨?_, fun n hn => ?_⟩
          · rw [hv, hsome r a i0 ha]
            exact if_neg hi
          · rcases List.mem_cons.mp hn with rfl | hn
            · rw [ha]; exact fun h => hi (Option.some.inj h).symm
            · exact hno n hn
    · exact Or.inr ⟨n, List.mem_cons_of_mem _ hn, hh, hv⟩

variable {w : Nat} {s si u : Shape}

/-- One step of the scatter's fold: update position `n` overwrites the element its index lands at, or is dropped. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem step_none (d : ScatterDims s si u) (idx : IVec si w) (upd : u.Idx → α) (r : s.Idx → α) (n : Fin u.numel)
    (h : d.resultIdx? (u.rowMajor.symm n) idx = none) : step d idx upd r n = r := by
  unfold step; rw [h]

theorem step_some (d : ScatterDims s si u) (idx : IVec si w) (upd : u.Idx → α) (r : s.Idx → α) (n : Fin u.numel) (i : s.Idx)
    (h : d.resultIdx? (u.rowMajor.symm n) idx = some i) :
    step d idx upd r n = fun i' => if i' = i then upd (u.rowMajor.symm n) else r i' := by
  unfold step; rw [h]

/-- A `set` scatter is the fold of that step over the update positions in row-major order. -/
theorem scatter_eq_foldl (d : ScatterDims s si u) (x : s.Idx → α) (idx : IVec si w) (upd : u.Idx → α) :
    Host.scatter d (fun _ b => b) x idx upd = (List.finRange u.numel).foldl (step d idx upd) x := by
  unfold Host.scatter
  refine congrArg (fun f => List.foldl f x (List.finRange u.numel)) (funext fun r => funext fun n => ?_)
  unfold step
  cases d.resultIdx? (u.rowMajor.symm n) idx <;> rfl

/-- A `set` scatter read at `i`: the operand's element if no update index lands at `i`, else the update at some
    update index that lands at `i`. -/
theorem scatter_set_cases (d : ScatterDims s si u) (x : s.Idx → α) (idx : IVec si w) (upd : u.Idx → α) (i : s.Idx) :
    (Host.scatter d (fun _ b => b) x idx upd i = x i ∧ ∀ j : u.Idx, d.resultIdx? j idx ≠ some i)
      ∨ ∃ j : u.Idx, d.resultIdx? j idx = some i ∧ Host.scatter d (fun _ b => b) x idx upd i = upd j := by
  rw [scatter_eq_foldl]
  rcases foldl_set_cases (hit := fun n : Fin u.numel => d.resultIdx? (u.rowMajor.symm n) idx)
      (val := fun n => upd (u.rowMajor.symm n)) (step d idx upd)
      (step_none d idx upd) (step_some d idx upd) (List.finRange u.numel) x i with ⟨hv, hno⟩ | ⟨n, _, hh, hv⟩
  · refine Or.inl ⟨hv, fun j => ?_⟩
    have := hno (u.rowMajor j) (List.mem_finRange _)
    simpa only [Equiv.symm_apply_apply] using this
  · exact Or.inr ⟨u.rowMajor.symm n, hh, hv⟩

/-! ## A row scatter: operand `[N, C]`, one row index per update row -/

variable {N C K : ℕ}

/-- Update `(k, c)` lands at `(r, c')` exactly when row `k`'s index, read signed, is `r`, and `c = c'`. The four
    hypotheses say what the dimension numbers of such a scatter compute: the window starts at the row the index names
    and at column 0, and the window coordinate is the update's column. -/
theorem resultIdx_rows (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (k : Fin K) (c : Fin C) (r : Fin N) (c' : Fin C) :
    d.resultIdx? (ix2 k c) idx = some (ix2 r c') ↔ (idx (ix2 k (0 : Fin 1))).toInt = (r.val : Int) ∧ c = c' := by
  have e0 : d.start (ix2 k c) idx 0 + (d.window (ix2 k c) 0 : Int) = (idx (ix2 k (0 : Fin 1))).toInt := by
    rw [hs0, hw0]; simp
  have e1 : d.start (ix2 k c) idx 1 + (d.window (ix2 k c) 1 : Int) = (c.val : Int) := by
    rw [hs1, hw1]; simp
  unfold ScatterDims.resultIdx?
  constructor
  · intro h
    split at h
    · rename_i hb
      have h' := Option.some.inj h
      have h0 : (d.start (ix2 k c) idx 0 + (d.window (ix2 k c) 0 : Int)).toNat = r.val := congrArg (fun f => (f 0).val) h'
      have h1 : (d.start (ix2 k c) idx 1 + (d.window (ix2 k c) 1 : Int)).toNat = c'.val := congrArg (fun f => (f 1).val) h'
      have hb0 := (hb 0).1
      rw [e0] at h0 hb0
      rw [e1] at h1
      exact ⟨by omega, Fin.ext (by omega)⟩
    · exact nomatch h
  · rintro ⟨hr, rfl⟩
    have hb : ∀ a, 0 ≤ d.start (ix2 k c) idx a + (d.window (ix2 k c) a : Int)
        ∧ d.start (ix2 k c) idx a + (d.window (ix2 k c) a : Int) < ((⟨2, ![N, C]⟩ : Shape).size a : Int) := fun a => by
      match a with
      | ⟨0, _⟩ =>
        show 0 ≤ d.start (ix2 k c) idx 0 + (d.window (ix2 k c) 0 : Int)
          ∧ d.start (ix2 k c) idx 0 + (d.window (ix2 k c) 0 : Int) < (N : Int)
        rw [e0, hr]
        exact ⟨Int.natCast_nonneg _, by exact_mod_cast r.isLt⟩
      | ⟨1, _⟩ =>
        show 0 ≤ d.start (ix2 k c) idx 1 + (d.window (ix2 k c) 1 : Int)
          ∧ d.start (ix2 k c) idx 1 + (d.window (ix2 k c) 1 : Int) < (C : Int)
        rw [e1]
        exact ⟨Int.natCast_nonneg _, by exact_mod_cast c.isLt⟩
    rw [dif_pos hb]
    refine congrArg some (funext fun a => Fin.ext ?_)
    match a with
    | ⟨0, _⟩ =>
      show (d.start (ix2 k c) idx 0 + (d.window (ix2 k c) 0 : Int)).toNat = r.val
      rw [e0, hr, Int.toNat_natCast]
    | ⟨1, _⟩ =>
      show (d.start (ix2 k c) idx 1 + (d.window (ix2 k c) 1 : Int)).toNat = c.val
      rw [e1, Int.toNat_natCast]

/-- A row `set` scatter read at `(r, c)`: the operand's element if no row index is `r`; else the update's element
    `(k, c)` for some update row `k` whose index is `r`. -/
theorem scatter_rows_cases (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → α) (upd : (⟨2, ![K, C]⟩ : Shape).Idx → α) (r : Fin N) (c : Fin C) :
    (Host.scatter d (fun _ b => b) x idx upd (ix2 r c) = x (ix2 r c)
        ∧ ∀ k : Fin K, (idx (ix2 k (0 : Fin 1))).toInt ≠ (r.val : Int))
      ∨ ∃ k : Fin K, (idx (ix2 k (0 : Fin 1))).toInt = (r.val : Int)
        ∧ Host.scatter d (fun _ b => b) x idx upd (ix2 r c) = upd (ix2 k c) := by
  rcases scatter_set_cases d x idx upd (ix2 r c) with ⟨hv, hno⟩ | ⟨j, hh, hv⟩
  · exact Or.inl ⟨hv, fun k hk => hno (ix2 k c) ((resultIdx_rows d idx hs0 hs1 hw0 hw1 k c r c).mpr ⟨hk, rfl⟩)⟩
  · rw [eq_ix2 j] at hh hv
    obtain ⟨hk, hc⟩ := (resultIdx_rows d idx hs0 hs1 hw0 hw1 (j 0) (j 1) r c).mp hh
    exact Or.inr ⟨j 0, hk, hv.trans (congrArg (fun q => upd (ix2 (j 0) q)) hc)⟩

end Cert.LibScatterRows
-- ==== Proof.LibScatterAddRows.lean ====
/-
  An accumulating host scatter (`x.at[idx].add(v)`, a segment sum) read at an index.

  At the extended reals the accumulating scatter is, at each operand index, the operand's element plus the sum of the
  update elements whose index lands there. This file evaluates that sum for the two layouts a segment sum lowers to.

  A ROW scatter: operand `[N, C]`, one scalar row index per update row (`[K, 1]`), updates `[K, C]`. Update `(k, c')`
  lands at `(idx[k], c')` when `0 ≤ idx[k] < N` (the index read signed, not clamped) and is dropped otherwise, so
  element `(r, c)` of the result is the operand's plus the sum of `upd (k, c)` over the rows `k` with `idx[k] = r`.

  A VECTOR scatter: operand `[N]`, indices `[K, 1]`, updates `[K]`. Update `k` lands at `idx[k]` when that is
  inside the operand, so element `r` of the result is the operand's plus the sum of `upd k` over the `k` with
  `idx[k] = r`.
-/
import Idealize.ShloMosaic.PureOps.Ideal
import Idealize.ShloMosaic.Lib.ValueIdx
import proofs.«129473_j6605659701688_2_alg».proof.Proof.LibScatterRows

namespace Cert.LibScatterAddRows

open Idealize.ShloMosaic Idealize.ShloMosaic.ValueIdx

variable {w : ℕ}

/-! ## A row scatter: operand `[N, C]`, one row index per update row -/

/-- An accumulating row scatter read at `(r, c)`: the operand's element plus the sum, over the update rows `k`
    whose index (read signed) is `r`, of the update's element `(k, c)`. The four hypotheses say what the dimension
    numbers of such a scatter compute: the window starts at the row the index names and at column 0, and the window
    coordinate is the update's column. -/
theorem scatterAdd_rows {N C K : ℕ} (d : ScatterDims (⟨2, ![N, C]⟩ : Shape) ⟨2, ![K, 1]⟩ ⟨2, ![K, C]⟩)
    (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → EReal) (upd : (⟨2, ![K, C]⟩ : Shape).Idx → EReal) (r : Fin N) (c : Fin C) :
    Ideal.hostScatterAdd d x idx upd (ix2 r c)
      = x (ix2 r c) + ∑ k ∈ Finset.univ.filter (fun k : Fin K => (idx (ix2 k (0 : Fin 1))).toInt = (r.val : Int)),
          upd (ix2 k c) := by
  unfold Ideal.hostScatterAdd
  congr 1
  rw [Finset.sum_filter, Finset.sum_filter]
  refine (sum_idx2 _).trans (Finset.sum_congr rfl fun k _ => ?_)
  -- the inner sum over the update's columns keeps the one column `c`, when row `k`'s index is `r`
  have hcol : ∀ c' : Fin C,
      (if d.resultIdx? (ix2 k c') idx = some (ix2 r c) then upd (ix2 k c') else 0)
        = if (idx (ix2 k (0 : Fin 1))).toInt = (r.val : Int) ∧ c' = c then upd (ix2 k c') else 0 := fun c' =>
    if_congr (Cert.LibScatterRows.resultIdx_rows d idx hs0 hs1 hw0 hw1 k c' r c) rfl rfl
  rw [Finset.sum_congr rfl fun c' _ => hcol c']
  by_cases h : (idx (ix2 k (0 : Fin 1))).toInt = (r.val : Int)
  · simp [h]
  · simp [h]

/-! ## A vector scatter: operand `[N]`, one index per update element -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `k` lands at `r` exactly when its index, read signed, is `r`. The two hypotheses say what the dimension
    numbers of such a scatter compute: the window starts at the element the index names, and there is no window
    coordinate (the one operand axis is an inserted one). -/
theorem resultIdx_vec {N K : ℕ} (d : ScatterDims (⟨1, ![N]⟩ : Shape) ⟨2, ![K, 1]⟩ ⟨1, ![K]⟩)
    (idx : IVec (⟨2, ![K, 1]⟩ : Shape) w)
    (hs : ∀ k : Fin K, d.start (ix1 k) idx 0 = (idx (ix2 k (0 : Fin 1))).toInt)
    (hw : ∀ k : Fin K, d.window (ix1 k) 0 = 0) (k : Fin K) (r : Fin N) :
    d.resultIdx? (ix1 k) idx = some (ix1 r) ↔ (idx (ix2 k (0 : Fin 1))).toInt = (r.val : Int) := by
  have e0 : d.start (ix1 k) idx 0 + (d.window (ix1 k) 0 : Int) = (idx (ix2 k (0 : Fin 1))).toInt := by
    rw [hs, hw]; simp
  unfold ScatterDims.resultIdx?
  constructor
  · intro h
    split at h
    · rename_i hb
      have h' := Option.some.inj h
      have h0 : (d.start (ix1 k) idx 0 + (d.window (ix1 k) 0 : Int)).toNat = r.val := congrArg (fun f => (f 0).val) h'
      have hb0 := (hb 0).1
      rw [e0] at h0 hb0
      omega
    · exact nomatch h
  · intro hr
    have hb : ∀ a, 0 ≤ d.start (ix1 k) idx a + (d.window (ix1 k) a : Int)
        ∧ d.start (ix1 k) idx a + (d.window (ix1 k) a : Int) < ((⟨1, ![N]⟩ : Shape).size a : Int) := fun a => by
      match a with
      | ⟨0, _⟩ =>
        show 0 ≤ d.start (ix1 k) idx 0 + (d.window (ix1 k) 0 : Int)
          ∧ d.start (ix1 k) idx 0 + (d.window (ix1 k) 0 : Int) < (N : Int)
        rw [e0, hr]
        exact ⟨Int.natCast_nonneg _, by exact_mod_cast r.isLt⟩
    rw [dif_pos hb]
    refine congrArg some (funext fun a => Fin.ext ?_)
    match a with
    | ⟨0, _⟩ =>
      show (d.start (ix1 k) idx 0 + (d.window (ix1 k) 0 : Int)).toNat = r.val
      rw [e0, hr, Int.toNat_natCast]

/-- An accumulating vector scatter read at `r`: the operand's element plus the sum, over the update positions `k`
    whose index (read signed) is `r`, of the update's element `k`. -/
theorem scatterAdd_vec {N K : ℕ} (d : ScatterDims (⟨1, ![N]⟩ : Shape) ⟨2, ![K, 1]⟩ ⟨1, ![K]⟩)
    (idx : IVec (⟨2, ![K, 1]⟩ : Shape) w)
    (hs : ∀ k : Fin K, d.start (ix1 k) idx 0 = (idx (ix2 k (0 : Fin 1))).toInt)
    (hw : ∀ k : Fin K, d.window (ix1 k) 0 = 0)
    (x : (⟨1, ![N]⟩ : Shape).Idx → EReal) (upd : (⟨1, ![K]⟩ : Shape).Idx → EReal) (r : Fin N) :
    Ideal.hostScatterAdd d x idx upd (ix1 r)
      = x (ix1 r) + ∑ k ∈ Finset.univ.filter (fun k : Fin K => (idx (ix2 k (0 : Fin 1))).toInt = (r.val : Int)),
          upd (ix1 k) := by
  unfold Ideal.hostScatterAdd
  congr 1
  rw [Finset.sum_filter, Finset.sum_filter]
  exact (sum_idx1 _).trans (Finset.sum_congr rfl fun k _ => if_congr (resultIdx_vec d idx hs hw k r) rfl rfl)

end Cert.LibScatterAddRows
-- ==== Proof.HostReads.lean ====
/-
  The kernel's host-side values read at an index, at the extended reals.

  Before the region the host forms, from the argument arrays: the messages (each edge's gathered source row times the
  edge's weight) with a column of ones put in front; the segment sum of that widened array by destination node, whose
  column 0 is the in-degree and whose columns 1 to 128 are the summed messages; the segment sum of the edge features;
  and three scale columns — in-degree plus one, the larger of in-degree and one, in-degree. Each is read here at one
  index as a sum over `Cert.Spec.hit dst n`, the edges whose destination index, read signed, is node `n`: a segment
  sum at row `n` adds the update rows whose index is `n` to a zero operand, the slices and reshapes between the
  stages name one element each, and the concatenations pick the piece the column falls in.
-/
import proofs.«129473_j6605659701688_2_alg».proof.Proof.HostVals
import proofs.«129473_j6605659701688_2_alg».proof.Proof.Spec
import proofs.«129473_j6605659701688_2_alg».proof.Proof.LibScatterAddRows
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostReads

open Cert.KernelIdeal Cert.KernelIdeal.Gen Cert.KernelIdeal.HostVals
open Idealize.ShloMosaic Idealize.ShloMosaic.ValueIdx

/-! ## Small layout reads -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A scalar constant broadcast to any shape reads, at every index, the constant's value. -/
theorem splat_apply {t : Shape} (h : S_.BroadcastsInDim t ![]) (b : BitVec FTy.f32.bits) (i : t.Idx) :
    broadcastInDim t ![] h (constant (F := Ideal) S_ .f32 b) i = Ideal.ofBits .f32 b :=
  broadcastInDim_apply _ h _ i ix0 (fun a => a.elim0)

/-- The f32 pattern `0x40000000` is the extended real two. -/
theorem two_word : Ideal.ofBits .f32 0x40000000#32 = (2 : EReal) := by
  rw [show (2 : EReal) = ((2 : ℝ) : EReal) by norm_cast]
  simp [Ideal.ofBits, Ideal.ieee, -EReal.coe_mul]; norm_num

/-- A bias vector as a one-row matrix reads, at `(0, q)`, the vector at `q`. -/
theorem bias_row (x4 : FVec Ideal S128 .f32) (q : Fin 128) :
    shapeCast S1x128 x4 shapeCasts_S128_S1x128 (ix2 (0 : Fin 1) q) = x4 (ix1 q) :=
  shapeCast_a_1a_apply x4 _ 0 q

/-! ## The two segment sums' dimension numbers -/

/-- The dimension numbers of the segment sum of the 129-column array. -/
abbrev d129 : ScatterDims S100000x129 S1600000x1 S1600000x129 := scatter_S100000x129_S1600000x1_S1600000x129_1_0_0_1
/-- The dimension numbers of the segment sum of the 128-column array. -/
abbrev d128 : ScatterDims S100000x128 S1600000x1 S1600000x128 := scatter_S100000x128_S1600000x1_S1600000x128_1_0_0_1

/-- The window of update `(k, c)` starts at the row the index names … -/
theorem d129_start0 (idx : IVec S1600000x1 32) (k : Fin 1600000) (c : Fin 129) :
    d129.start (ix2 k c) idx 0 = (idx (ix2 k (0 : Fin 1))).toInt := by
  unfold ScatterDims.start
  rw [dif_pos (show (0 : Fin S100000x129.rank) ∈ d129.scatterDimsToOperandDims by decide)]
  refine congrArg (fun j => (idx j).toInt) (funext fun b => Fin.ext ?_)
  match b with
  | ⟨0, _⟩ => rfl
  | ⟨1, _⟩ => rfl

/-- … and at column 0; -/
theorem d129_start1 (idx : IVec S1600000x1 32) (k : Fin 1600000) (c : Fin 129) :
    d129.start (ix2 k c) idx 1 = 0 := by
  unfold ScatterDims.start
  rw [dif_neg (show ¬ (1 : Fin S100000x129.rank) ∈ d129.scatterDimsToOperandDims by decide)]

/-- its window coordinate is 0 on the row axis (an inserted axis) … -/
theorem d129_window0 (k : Fin 1600000) (c : Fin 129) : d129.window (ix2 k c) 0 = 0 := by
  unfold ScatterDims.window
  rw [dif_neg (show ¬ (0 : Fin S100000x129.rank) ∈ d129.sKept by decide)]

/-- … and the update's column on the column axis. -/
theorem d129_window1 (k : Fin 1600000) (c : Fin 129) : d129.window (ix2 k c) 1 = c.val := by
  unfold ScatterDims.window
  rw [dif_pos (show (1 : Fin S100000x129.rank) ∈ d129.sKept by decide)]
  rfl

/-- The same four facts for the 128-column segment sum: the start row is the index, … -/
theorem d128_start0 (idx : IVec S1600000x1 32) (k : Fin 1600000) (c : Fin 128) :
    d128.start (ix2 k c) idx 0 = (idx (ix2 k (0 : Fin 1))).toInt := by
  unfold ScatterDims.start
  rw [dif_pos (show (0 : Fin S100000x128.rank) ∈ d128.scatterDimsToOperandDims by decide)]
  refine congrArg (fun j => (idx j).toInt) (funext fun b => Fin.ext ?_)
  match b with
  | ⟨0, _⟩ => rfl
  | ⟨1, _⟩ => rfl

/-- … the start column is 0, … -/
theorem d128_start1 (idx : IVec S1600000x1 32) (k : Fin 1600000) (c : Fin 128) :
    d128.start (ix2 k c) idx 1 = 0 := by
  unfold ScatterDims.start
  rw [dif_neg (show ¬ (1 : Fin S100000x128.rank) ∈ d128.scatterDimsToOperandDims by decide)]

/-- … the window coordinate is 0 on the row axis … -/
theorem d128_window0 (k : Fin 1600000) (c : Fin 128) : d128.window (ix2 k c) 0 = 0 := by
  unfold ScatterDims.window
  rw [dif_neg (show ¬ (0 : Fin S100000x128.rank) ∈ d128.sKept by decide)]

/-- … and the update's column on the column axis. -/
theorem d128_window1 (k : Fin 1600000) (c : Fin 128) : d128.window (ix2 k c) 1 = c.val := by
  unfold ScatterDims.window
  rw [dif_pos (show (1 : Fin S100000x128.rank) ∈ d128.sKept by decide)]
  rfl

/-! ## The destination indices and the edges that point at a node -/

/-- The destination index of edge e, read signed. -/
def dstOf (x8 : IVec S1600000 32) : Fin 1600000 → Int := fun e => (x8 (ix1 e)).toInt

/-- The column of scatter indices at row `e` is edge `e`'s destination word. -/
theorem dstIdx_apply (x8 : IVec S1600000 32) (e : Fin 1600000) : dstIdx x8 (ix2 e (0 : Fin 1)) = x8 (ix1 e) := by
  unfold dstIdx
  exact broadcastInDim_apply _ bcast_S1600000_S1600000x1_0 x8 _ (ix1 e) (fun a => match a with | ⟨0, _⟩ => rfl)

/-- The update rows whose scatter index is `n` are the edges that point at node `n`. -/
theorem filter_eq_hit (x8 : IVec S1600000 32) (n : Fin 100000) :
    Finset.univ.filter (fun k : Fin 1600000 => (dstIdx x8 (ix2 k (0 : Fin 1))).toInt = (n.val : Int))
      = Cert.Spec.hit (dstOf x8) n := by
  unfold Cert.Spec.hit dstOf
  exact Finset.filter_congr fun e _ => by rw [dstIdx_apply]

/-! ## The column of ones beside the messages -/

/-- Column 0 of the widened update array is one. -/
theorem onesMsg_zero (x0 : FVec Ideal S100000x128 .f32) (x2 : FVec Ideal S1600000 .f32) (x7 : IVec S1600000 32)
    (e : Fin 1600000) : onesMsg (F := Ideal) x0 x2 x7 (ix2 e (0 : Fin 129)) = 1 := by
  unfold onesMsg
  refine (concatenate_pair_apply_left (s₁ := S1600000x1) (s₂ := S1600000x128) 1 _ _ _ (ix2 e (0 : Fin 129)) rfl (ix2 e (0 : Fin 1)) (fun b => by
    match b with
    | ⟨0, _⟩ => rfl
    | ⟨1, _⟩ => rfl)).trans ?_
  rw [splat_apply, Ideal.ofBits_one_f32]

/-- Column `k + 1` of the widened update array is column `k` of the messages. -/
theorem onesMsg_succ (x0 : FVec Ideal S100000x128 .f32) (x2 : FVec Ideal S1600000 .f32) (x7 : IVec S1600000 32)
    (e : Fin 1600000) (k : Fin 128) (c : Fin 129) (hc : c.val = k.val + 1) :
    onesMsg (F := Ideal) x0 x2 x7 (ix2 e c) = msg (F := Ideal) x0 x2 x7 (ix2 e k) := by
  unfold onesMsg
  exact concatenate_pair_apply_right (s₁ := S1600000x1) (s₂ := S1600000x128) 1 _ _ _ (ix2 e c) rfl rfl (ix2 e k) (fun b hb => by
    match b with
    | ⟨0, _⟩ => rfl
    | ⟨1, _⟩ => exact absurd rfl hb) hc.symm

/-! ## The segment sums at an index -/

/-- At the extended reals the host's accumulating scatter is the exact sum (by definition). Stated over arbitrary
    shapes, so that it is used by rewriting and nothing is unfolded at a concrete shape. -/
theorem scatterAdd_ideal {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The segment sum of the widened array at `(n, c)`: the sum over the edges that point at `n` of their column `c`. -/
theorem segAll_apply (x0 : FVec Ideal S100000x128 .f32) (x2 : FVec Ideal S1600000 .f32) (x7 x8 : IVec S1600000 32)
    (n : Fin 100000) (c : Fin 129) :
    segAll (F := Ideal) x0 x2 x7 x8 (ix2 n c)
      = 0 + ∑ e ∈ Cert.Spec.hit (dstOf x8) n, onesMsg (F := Ideal) x0 x2 x7 (ix2 e c) := by
  unfold segAll
  rw [scatterAdd_ideal, Cert.LibScatterAddRows.scatterAdd_rows d129 (dstIdx x8) (d129_start0 _) (d129_start1 _) d129_window0 d129_window1,
    splat_apply, Ideal.ofBits_zero_f32, filter_eq_hit]

/-- The in-degree of node `n`: one added per edge that points at it. -/
theorem inDeg_apply (x0 : FVec Ideal S100000x128 .f32) (x2 : FVec Ideal S1600000 .f32) (x7 x8 : IVec S1600000 32)
    (n : Fin 100000) :
    inDeg (F := Ideal) x0 x2 x7 x8 (ix1 n) = 0 + ∑ _e ∈ Cert.Spec.hit (dstOf x8) n, (1 : EReal) := by
  unfold inDeg
  rw [shapeCast_a1_a_apply, slice2_axis1_apply 0 _ _ n (0 : Fin 1) (0 : Fin 129) rfl, segAll_apply]
  exact congrArg (fun t : EReal => 0 + t) (Finset.sum_congr rfl fun e _ => onesMsg_zero x0 x2 x7 e)

/-- The summed messages at `(n, k)`: the sum over the edges that point at `n` of their message's entry `k`. -/
theorem neigh_apply (x0 : FVec Ideal S100000x128 .f32) (x2 : FVec Ideal S1600000 .f32) (x7 x8 : IVec S1600000 32)
    (n : Fin 100000) (k : Fin 128) :
    neigh (F := Ideal) x0 x2 x7 x8 (ix2 n k)
      = 0 + ∑ e ∈ Cert.Spec.hit (dstOf x8) n, msg (F := Ideal) x0 x2 x7 (ix2 e k) := by
  unfold neigh
  rw [slice2_axis1_apply 1 _ _ n k (⟨k.val + 1, by have := k.isLt; omega⟩ : Fin 129) (Nat.add_comm _ _), segAll_apply]
  exact congrArg (fun t : EReal => 0 + t) (Finset.sum_congr rfl fun e _ => onesMsg_succ x0 x2 x7 e k _ rfl)

/-- The summed edge features at `(n, k)`: the sum over the edges that point at `n` of their feature `k`. -/
theorem es_apply (x1 : FVec Ideal S1600000x128 .f32) (x8 : IVec S1600000 32) (n : Fin 100000) (k : Fin 128) :
    es (F := Ideal) x1 x8 (ix2 n k) = 0 + ∑ e ∈ Cert.Spec.hit (dstOf x8) n, x1 (ix2 e k) := by
  unfold es
  rw [scatterAdd_ideal, Cert.LibScatterAddRows.scatterAdd_rows d128 (dstIdx x8) (d128_start0 _) (d128_start1 _) d128_window0 d128_window1,
    splat_apply, Ideal.ofBits_zero_f32, filter_eq_hit]

/-! ## The three scale columns -/

/-- Three columns side by side read, at column `c`, the `c`-th of them. -/
theorem cols3_apply0 {F : FTy → Type} [FloatOps F] (a b c : FVec F S100000x1 .f32) (n : Fin 100000) :
    cols3 a b c (ix2 n (0 : Fin 3)) = a (ix2 n (0 : Fin 1)) := by
  unfold cols3
  exact concatenate_apply_piece 1 _ _ (ix2 n (0 : Fin 3)) 0 (by show (0 : ℕ) < 3; decide) S100000x1 _ rfl rfl 0 rfl
    (ix2 n (0 : Fin 1)) (fun b hb => by
      match b with
      | ⟨0, _⟩ => rfl
      | ⟨1, _⟩ => exact absurd rfl hb) rfl

/-- Column 1 is the second of the three. -/
theorem cols3_apply1 {F : FTy → Type} [FloatOps F] (a b c : FVec F S100000x1 .f32) (n : Fin 100000) :
    cols3 a b c (ix2 n (1 : Fin 3)) = b (ix2 n (0 : Fin 1)) := by
  unfold cols3
  exact concatenate_apply_piece 1 _ _ (ix2 n (1 : Fin 3)) 1 (by show (1 : ℕ) < 3; decide) S100000x1 _ rfl rfl 1 rfl
    (ix2 n (0 : Fin 1)) (fun b hb => by
      match b with
      | ⟨0, _⟩ => rfl
      | ⟨1, _⟩ => exact absurd rfl hb) rfl

/-- Column 2 is the third of the three. -/
theorem cols3_apply2 {F : FTy → Type} [FloatOps F] (a b c : FVec F S100000x1 .f32) (n : Fin 100000) :
    cols3 a b c (ix2 n (2 : Fin 3)) = c (ix2 n (0 : Fin 1)) := by
  unfold cols3
  exact concatenate_apply_piece 1 _ _ (ix2 n (2 : Fin 3)) 2 (by show (2 : ℕ) < 3; decide) S100000x1 _ rfl rfl 2 rfl
    (ix2 n (0 : Fin 1)) (fun b hb => by
      match b with
      | ⟨0, _⟩ => rfl
      | ⟨1, _⟩ => exact absurd rfl hb) rfl

/-- Scale column 0: the in-degree plus one. -/
theorem scales_apply0 (x0 : FVec Ideal S100000x128 .f32) (x2 : FVec Ideal S1600000 .f32) (x7 x8 : IVec S1600000 32)
    (n : Fin 100000) :
    scales (F := Ideal) x0 x2 x7 x8 (ix2 n (0 : Fin 3)) = (0 + ∑ _e ∈ Cert.Spec.hit (dstOf x8) n, (1 : EReal)) + 1 := by
  unfold scales
  rw [cols3_apply0]
  unfold degCol
  rw [shapeCast_a_a1_apply, addf_apply, inDeg_apply, splat_apply, Ideal.ofBits_one_f32]

/-- Scale column 1: the larger of the in-degree and one. -/
theorem scales_apply1 (x0 : FVec Ideal S100000x128 .f32) (x2 : FVec Ideal S1600000 .f32) (x7 x8 : IVec S1600000 32)
    (n : Fin 100000) :
    scales (F := Ideal) x0 x2 x7 x8 (ix2 n (1 : Fin 3)) = max (0 + ∑ _e ∈ Cert.Spec.hit (dstOf x8) n, (1 : EReal)) 1 := by
  unfold scales
  rw [cols3_apply1]
  unfold meanCol
  rw [shapeCast_a_a1_apply, maximumf_apply, inDeg_apply, splat_apply, Ideal.ofBits_one_f32]

/-- Scale column 2: the in-degree. -/
theorem scales_apply2 (x0 : FVec Ideal S100000x128 .f32) (x2 : FVec Ideal S1600000 .f32) (x7 x8 : IVec S1600000 32)
    (n : Fin 100000) :
    scales (F := Ideal) x0 x2 x7 x8 (ix2 n (2 : Fin 3)) = 0 + ∑ _e ∈ Cert.Spec.hit (dstOf x8) n, (1 : EReal) := by
  unfold scales
  rw [cols3_apply2]
  unfold cntCol
  rw [shapeCast_a_a1_apply, inDeg_apply]

/-! ## The messages are real -/

/-- A message is a gathered node feature times a broadcast edge weight: real when both arrays are. -/
theorem msg_real (x0 : FVec Ideal S100000x128 .f32) (x2 : FVec Ideal S1600000 .f32) (x7 : IVec S1600000 32)
    (h0 : ∀ i, ∃ r : ℝ, x0 i = (r : EReal)) (h2 : ∀ i, ∃ r : ℝ, x2 i = (r : EReal)) :
    ∀ i, ∃ r : ℝ, msg (F := Ideal) x0 x2 x7 i = (r : EReal) := by
  intro i
  obtain ⟨a, ha⟩ := h0 (gather_S100000x128_S1600000x1_S1600000x128_1_0_n_n_0_1_1128.operandIdx i (srcIdx x7))
  -- a gathered element is an element of the operand, by definition
  have hg : Host.gather gather_S100000x128_S1600000x1_S1600000x128_1_0_n_n_0_1_1128 x0 (srcIdx x7) i = (a : EReal) := ha
  have hb : ∃ j, broadcastInDim S1600000x128 ![0, 1] bcast_S1600000x1_S1600000x128_0_1
      (broadcastInDim S1600000x1 ![0] bcast_S1600000_S1600000x1_0 x2) i = x2 j := ⟨_, rfl⟩
  obtain ⟨j, hj⟩ := hb
  obtain ⟨b, hb'⟩ := h2 j
  refine ⟨a * b, ?_⟩
  unfold msg
  rw [mulf_apply, hg, hj, hb', EReal.coe_mul]

end Cert.KernelIdeal.HostReads

end
-- ==== Proof.PayloadAt.lean ====
/-
  The kernel body's one stored value, read at an index of its block, at the extended reals.

  The body forms, for a block of rows, two matrix products against the TRANSPOSES of two square weight matrices
  (each contracts the operands' second axes), scales the first by the first column of a three-column block of
  per-row divisors, adds a bias row, and adds to that the second product plus the third column times another bias
  row, divided by the second column. Read at row `p` and column `q`, every layout operation of the body names one
  element of its operand: a shape cast to the same shape is the identity, a column slice of the divisor block reads
  that column, a column broadcast along the lanes reads the row's element, a row broadcast along the rows reads the
  column's element, and a matrix product is the sum over the contracted coordinate of the products. The narrowing
  format changes before the products are the identity on extended reals.
-/
import proofs.«129473_j6605659701688_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

namespace Cert.KernelIdeal.PayloadAt

open Idealize.ShloMosaic Idealize.ShloMosaic.ValueIdx
open Cert.KernelIdeal Cert.KernelIdeal.Gen

/-! ## One column broadcast over the lanes -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product against a transposed weight matrix -/

/-- The product's dimension numbers: both operands contract their second axis. -/
abbrev D : DotDims S4000x128 S128x128 S4000x128 := dot_S4000x128_S128x128_S4000x128_1_1_0_0_n_n

/-- The left operand's row is the output's row. -/
theorem lhs_0 (i : S4000x128.Idx) (k : D.contr.Idx) : (D.lhsIdx i k 0).val = (i 0).val := by
  unfold DotDims.lhsIdx
  rw [dif_neg (show ¬(0 : Fin S4000x128.rank) ∈ D.lhsBatch by decide),
    dif_pos (show (0 : Fin S4000x128.rank) ∈ D.lhsNonContracting by decide)]
  rfl

/-- The left operand's column is the contracted coordinate. -/
theorem lhs_1 (i : S4000x128.Idx) (k : D.contr.Idx) : (D.lhsIdx i k 1).val = (k ⟨0, by decide⟩).val :=
  D.lhsIdx_val_of_single rfl i k

/-- The right operand's row is the output's column. -/
theorem rhs_0 (i : S4000x128.Idx) (k : D.contr.Idx) : (D.rhsIdx i k 0).val = (i 1).val := by
  unfold DotDims.rhsIdx
  rw [dif_neg (show ¬(0 : Fin S128x128.rank) ∈ D.rhsBatch by decide),
    dif_pos (show (0 : Fin S128x128.rank) ∈ D.rhsNonContracting by decide)]
  rfl

/-- The right operand's column is the contracted coordinate. -/
theorem rhs_1 (i : S4000x128.Idx) (k : D.contr.Idx) : (D.rhsIdx i k 1).val = (k ⟨0, by decide⟩).val :=
  D.rhsIdx_val_of_single rfl i k

/-- The product into a zero accumulator read at `(p, q)`: row `p` of the left operand against ROW `q` of the right
    one (the right operand enters transposed). -/
theorem matmul_at {φ₁ φ₂ : FTy} (lhs : FVec Ideal S4000x128 φ₁) (rhs : FVec Ideal S128x128 φ₂) (p : Fin 4000) (q : Fin 128) :
    matmul (F := Ideal) D none lhs rhs (constant (F := Ideal) S4000x128 .f32 0x00000000#32) (ix2 p q)
      = ∑ k : Fin 128, lhs (ix2 p k) * rhs (ix2 q k) := by
  refine (Ideal.matmul_constant_zero_apply D none lhs rhs (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 q k := funext fun a => Fin.ext (by
    match a with
    | ⟨0, _⟩ => exact rhs_0 _ _
    | ⟨1, _⟩ => exact (rhs_1 _ _).trans hk)
  rw [el, er]

/-! ## The stored value at an index -/

/-- The body's stored value at row `p`, column `q`. -/
theorem pay1_apply (v0 : Vec Ideal S4000x3 .f32) (v5 v7 : Vec Ideal S4000x128 .f32) (v12 : Vec Ideal S128x128 .f32)
    (v17 : Vec Ideal S1x128 .f32) (v21 : Vec Ideal S4000x128 .f32) (v24 : Vec Ideal S128x128 .f32)
    (v27 : Vec Ideal S1x128 .f32) (p : Fin 4000) (q : Fin 128) :
    Gen.k0_pay1 (F := Ideal) v0 v5 v7 v12 v17 v21 v24 v27 (ix2 p q)
      = (Ideal.div (∑ k : Fin 128, (v5 (ix2 p k) + Ideal.ofBits .f32 0x40000000#32 * v7 (ix2 p k)) * v12 (ix2 q k))
            (v0 (ix2 p (0 : Fin 3))) + v17 (ix2 (0 : Fin 1) q))
        + Ideal.div ((∑ k : Fin 128, v21 (ix2 p k) * v24 (ix2 q k)) + v0 (ix2 p (2 : Fin 3)) * v27 (ix2 (0 : Fin 1) q))
            (v0 (ix2 p (1 : Fin 3))) := by
  unfold Gen.k0_pay1
  -- the outer pointwise operations (two quotients, three sums, one product) read at the index
  show (Ideal.div (matmul (F := Ideal) D none _ _ _ (ix2 p q)) (broadcastTo _ _ _ (ix2 p q)) + broadcastTo _ _ _ (ix2 p q))
      + Ideal.div (matmul (F := Ideal) D none _ _ _ (ix2 p q) + broadcastTo _ _ _ (ix2 p q) * broadcastTo _ _ _ (ix2 p q))
          (broadcastTo _ _ _ (ix2 p q)) = _
  -- the two products, then the five broadcasts, the three column slices and the same-shape casts
  rw [matmul_at, matmul_at]
  rw [broadcastTo_a1_ab_apply, broadcastTo_a1_ab_apply, broadcastTo_a1_ab_apply, broadcastTo_1b_ab_apply,
    broadcastTo_1b_ab_apply]
  rw [slice2_axis1_apply 0 _ _ p (0 : Fin 1) (0 : Fin 3) rfl, slice2_axis1_apply 2 _ _ p (0 : Fin 1) (2 : Fin 3) rfl,
    slice2_axis1_apply 1 _ _ p (0 : Fin 1) (1 : Fin 3) rfl]
  simp only [shapeCast_self]
  -- what is left differs only by the pointwise operations and the format changes, which read through by definition
  rfl

end Cert.KernelIdeal.PayloadAt
-- ==== Proof.KernelValue.lean ====
/-
  From the 25 written-back blocks to the whole result array, at the extended reals.

  Grid point `t` handles the node rows `4000·t … 4000·t + 3999`: its block of every row-blocked array (the node
  features, the summed messages, the summed edge features, the scale columns, the result) is those rows with all their
  columns, and its blocks of the two weight matrices and the two bias rows are the whole arrays. So entry `(p, q)` of
  what point `t` writes back is the body's value at row `n = 4000·t + p`, and read with the host-side sums at an
  index that is the fused form of the specification at `(n, q)`. The 25 blocks tile the 100000 rows — row `n` lies in
  the block of point `n / 4000` — so the result array is the specification's, whole.
-/
import proofs.«129473_j6605659701688_2_alg».proof.Proof.FrameKI
import proofs.«129473_j6605659701688_2_alg».proof.Proof.HostVals
import proofs.«129473_j6605659701688_2_alg».proof.Proof.HostReads
import proofs.«129473_j6605659701688_2_alg».proof.Proof.PayloadAt
import proofs.«129473_j6605659701688_2_alg».proof.Proof.Spec
import Idealize.ShloMosaic.Lib.Pipeline.Value

set_option maxRecDepth 16384

noncomputable section

namespace Cert.KernelIdeal.KValue

open Cert.KernelIdeal Cert.KernelIdeal.Gen Cert.KernelIdeal.Frame Cert.KernelIdeal.HostVals Cert.KernelIdeal.HostReads Cert.KernelIdeal.PayloadAt
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the argument arrays: the specification's fused form. -/
def Gm (c : Dev nD) : S100000x128.Idx → EReal :=
  Cert.Spec.G (msg (F := Ideal) (m ((c : Thread nD τ).loc main_arg0)) (m ((c : Thread nD τ).loc main_arg2)) (m ((c : Thread nD τ).loc main_arg7))) (m ((c : Thread nD τ).loc main_arg1)) (m ((c : Thread nD τ).loc main_arg0))
    (m ((c : Thread nD τ).loc main_arg3)) (m ((c : Thread nD τ).loc main_arg5)) (m ((c : Thread nD τ).loc main_arg4)) (m ((c : Thread nD τ).loc main_arg6)) (dstOf (m ((c : Thread nD τ).loc main_arg8)))

theorem hz : (![0, 0] : Fin 2 → Nat) = fun _ => 0 := funext fun a => by fin_cases a <;> rfl

/-- The printed index maps over the grid: the row-blocked windows are at block `(t, 0)`, the whole-array windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 25 := lt_of_lt_of_eq t.isLt N_0

/-- The node row that grid point `t` handles at block row `p`. -/
def row (t : Fin cfg0.N) (p : Fin 4000) : Fin 100000 := ⟨t.val * 4000 + p.val, by have := t_lt t; have := p.isLt; omega⟩

/-! ## Where a block's entry sits in its array -/

theorem emb0 (t : Fin cfg0.N) (p : Fin 4000) (k : Fin 128) : ((cfg0.win 0).blk t).view.emb (ix2 p k) = ix2 (row t p) k := by
  obtain ⟨e00, e01, e10, e11, e20, e21, e30, e31, e40, e41, e50, e51, e60, e61, e70, e71, e80, e81⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega
theorem emb1 (t : Fin cfg0.N) (p : Fin 4000) (k : Fin 128) : ((cfg0.win 1).blk t).view.emb (ix2 p k) = ix2 (row t p) k := by
  obtain ⟨e00, e01, e10, e11, e20, e21, e30, e31, e40, e41, e50, e51, e60, e61, e70, e71, e80, e81⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega
theorem emb2 (t : Fin cfg0.N) (p : Fin 4000) (k : Fin 128) : ((cfg0.win 2).blk t).view.emb (ix2 p k) = ix2 (row t p) k := by
  obtain ⟨e00, e01, e10, e11, e20, e21, e30, e31, e40, e41, e50, e51, e60, e61, e70, e71, e80, e81⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 128 + 1 * k.val = k.val; omega
theorem emb8 (t : Fin cfg0.N) (p : Fin 4000) (k : Fin 128) : ((cfg0.win 8).blk t).view.emb (ix2 p k) = ix2 (row t p) k := by
  obtain ⟨e00, e01, e10, e11, e20, e21, e30, e31, e40, e41, e50, e51, e60, e61, e70, e71, e80, e81⟩ := idx_facts t
  funext a; apply Fin.ext
  match a with
  | ⟨0, _⟩ => show win0_8.index t (0 : Fin 2) * 4000 + 1 * p.val = t.val * 4000 + p.val; omega
  | ⟨1, _⟩ => show win0_8.index t (1 : Fin 2) * 128 + 1 * k.val = k.val; omega
theorem emb3 (t : Fin cfg0.N) (p : Fin 4000) (k : Fin 3) : ((cfg0.win 3).blk t).view.emb (ix2 p k) = ix2 (row t p) k := by
  obtain ⟨e00, e01, e10, e11, e20, e21, e30, e31, e40, e41, e50, e51, e60, e61, e70, e71, e80, e81⟩ := idx_facts t
  funext a; apply Fin.ext
  match a with
  | ⟨0, _⟩ => show win0_3.index t (0 : Fin 2) * 4000 + 1 * p.val = t.val * 4000 + p.val; omega
  | ⟨1, _⟩ => show win0_3.index t (1 : Fin 2) * 3 + 1 * k.val = k.val; omega
theorem emb4 (t : Fin cfg0.N) (p : Fin 128) (k : Fin 128) : ((cfg0.win 4).blk t).view.emb (ix2 p k) = ix2 p k := by
  obtain ⟨e00, e01, e10, e11, e20, e21, e30, e31, e40, e41, e50, e51, e60, e61, e70, e71, e80, e81⟩ := idx_facts t
  funext a; apply Fin.ext
  match a with
  | ⟨0, _⟩ => show win0_4.index t (0 : Fin 2) * 128 + 1 * p.val = p.val; omega
  | ⟨1, _⟩ => show win0_4.index t (1 : Fin 2) * 128 + 1 * k.val = k.val; omega
theorem emb6 (t : Fin cfg0.N) (p : Fin 128) (k : Fin 128) : ((cfg0.win 6).blk t).view.emb (ix2 p k) = ix2 p k := by
  obtain ⟨e00, e01, e10, e11, e20, e21, e30, e31, e40, e41, e50, e51, e60, e61, e70, e71, e80, e81⟩ := idx_facts t
  funext a; apply Fin.ext
  match a with
  | ⟨0, _⟩ => show win0_6.index t (0 : Fin 2) * 128 + 1 * p.val = p.val; omega
  | ⟨1, _⟩ => show win0_6.index t (1 : Fin 2) * 128 + 1 * k.val = k.val; omega
theorem emb5 (t : Fin cfg0.N) (p : Fin 1) (k : Fin 128) : ((cfg0.win 5).blk t).view.emb (ix2 p k) = ix2 p k := by
  obtain ⟨e00, e01, e10, e11, e20, e21, e30, e31, e40, e41, e50, e51, e60, e61, e70, e71, e80, e81⟩ := idx_facts t
  funext a; apply Fin.ext
  match a with
  | ⟨0, _⟩ => show win0_5.index t (0 : Fin 2) * 1 + 1 * p.val = p.val; omega
  | ⟨1, _⟩ => show win0_5.index t (1 : Fin 2) * 128 + 1 * k.val = k.val; omega
theorem emb7 (t : Fin cfg0.N) (p : Fin 1) (k : Fin 128) : ((cfg0.win 7).blk t).view.emb (ix2 p k) = ix2 p k := by
  obtain ⟨e00, e01, e10, e11, e20, e21, e30, e31, e40, e41, e50, e51, e60, e61, e70, e71, e80, e81⟩ := idx_facts t
  funext a; apply Fin.ext
  match a with
  | ⟨0, _⟩ => show win0_7.index t (0 : Fin 2) * 1 + 1 * p.val = p.val; omega
  | ⟨1, _⟩ => show win0_7.index t (1 : Fin 2) * 128 + 1 * k.val = k.val; omega

/-! ## The input blocks read at an entry -/

/-! A window's block at an entry is its array at the entry's place in the array — whatever the array holds. -/
theorem read_blk0 (c : Dev nD) (A : (b : Ref sig .tc) → Buf (Elt Ideal) ((c : Thread nD τ).loc b)) (t : Fin cfg0.N) (y : S4000x128.Idx) :
    ((cfg0.win 0).blk t).view.read (Elt Ideal) (A (Pipeline.arrRef spec0 0)) y = A main_arg0 (((cfg0.win 0).blk t).view.emb y) := rfl
theorem read_blk1 (c : Dev nD) (A : (b : Ref sig .tc) → Buf (Elt Ideal) ((c : Thread nD τ).loc b)) (t : Fin cfg0.N) (y : S4000x128.Idx) :
    ((cfg0.win 1).blk t).view.read (Elt Ideal) (A (Pipeline.arrRef spec0 1)) y = A main_v17 (((cfg0.win 1).blk t).view.emb y) := rfl
theorem read_blk2 (c : Dev nD) (A : (b : Ref sig .tc) → Buf (Elt Ideal) ((c : Thread nD τ).loc b)) (t : Fin cfg0.N) (y : S4000x128.Idx) :
    ((cfg0.win 2).blk t).view.read (Elt Ideal) (A (Pipeline.arrRef spec0 2)) y = A main_v20 (((cfg0.win 2).blk t).view.emb y) := rfl
theorem read_blk3 (c : Dev nD) (A : (b : Ref sig .tc) → Buf (Elt Ideal) ((c : Thread nD τ).loc b)) (t : Fin cfg0.N) (y : S4000x3.Idx) :
    ((cfg0.win 3).blk t).view.read (Elt Ideal) (A (Pipeline.arrRef spec0 3)) y = A main_v28 (((cfg0.win 3).blk t).view.emb y) := rfl
theorem read_blk4 (c : Dev nD) (A : (b : Ref sig .tc) → Buf (Elt Ideal) ((c : Thread nD τ).loc b)) (t : Fin cfg0.N) (y : S128x128.Idx) :
    ((cfg0.win 4).blk t).view.read (Elt Ideal) (A (Pipeline.arrRef spec0 4)) y = A main_arg3 (((cfg0.win 4).blk t).view.emb y) := rfl
theorem read_blk5 (c : Dev nD) (A : (b : Ref sig .tc) → Buf (Elt Ideal) ((c : Thread nD τ).loc b)) (t : Fin cfg0.N) (y : S1x128.Idx) :
    ((cfg0.win 5).blk t).view.read (Elt Ideal) (A (Pipeline.arrRef spec0 5)) y = A main_v29 (((cfg0.win 5).blk t).view.emb y) := rfl
theorem read_blk6 (c : Dev nD) (A : (b : Ref sig .tc) → Buf (Elt Ideal) ((c : Thread nD τ).loc b)) (t : Fin cfg0.N) (y : S128x128.Idx) :
    ((cfg0.win 6).blk t).view.read (Elt Ideal) (A (Pipeline.arrRef spec0 6)) y = A main_arg5 (((cfg0.win 6).blk t).view.emb y) := rfl
theorem read_blk7 (c : Dev nD) (A : (b : Ref sig .tc) → Buf (Elt Ideal) ((c : Thread nD τ).loc b)) (t : Fin cfg0.N) (y : S1x128.Idx) :
    ((cfg0.win 7).blk t).view.read (Elt Ideal) (A (Pipeline.arrRef spec0 7)) y = A main_v30 (((cfg0.win 7).blk t).view.emb y) := rfl

theorem blk0 (c : Dev nD) (t : Fin cfg0.N) (p : Fin 4000) (k : Fin 128) :
    (iblk m c 0 t : Vec Ideal S4000x128 .f32) (ix2 p k) = (m ((c : Thread nD τ).loc main_arg0)) (ix2 (row t p) k) := by
  unfold iblk
  refine (read_blk0 c (V m c) t (ix2 p k)).trans ?_
  rw [emb0]
  exact congrFun (V_main_arg0 m c) _
theorem blk1 (c : Dev nD) (t : Fin cfg0.N) (p : Fin 4000) (k : Fin 128) :
    (iblk m c 1 t : Vec Ideal S4000x128 .f32) (ix2 p k)
      = neigh (F := Ideal) (m ((c : Thread nD τ).loc main_arg0)) (m ((c : Thread nD τ).loc main_arg2)) (m ((c : Thread nD τ).loc main_arg7)) (m ((c : Thread nD τ).loc main_arg8)) (ix2 (row t p) k) := by
  unfold iblk
  refine (read_blk1 c (V m c) t (ix2 p k)).trans ?_
  rw [emb1]
  exact congrFun (V_neigh m c) _
theorem blk2 (c : Dev nD) (t : Fin cfg0.N) (p : Fin 4000) (k : Fin 128) :
    (iblk m c 2 t : Vec Ideal S4000x128 .f32) (ix2 p k) = es (F := Ideal) (m ((c : Thread nD τ).loc main_arg1)) (m ((c : Thread nD τ).loc main_arg8)) (ix2 (row t p) k) := by
  unfold iblk
  refine (read_blk2 c (V m c) t (ix2 p k)).trans ?_
  rw [emb2]
  exact congrFun (V_es m c) _
theorem blk3 (c : Dev nD) (t : Fin cfg0.N) (p : Fin 4000) (k : Fin 3) :
    (iblk m c 3 t : Vec Ideal S4000x3 .f32) (ix2 p k)
      = scales (F := Ideal) (m ((c : Thread nD τ).loc main_arg0)) (m ((c : Thread nD τ).loc main_arg2)) (m ((c : Thread nD τ).loc main_arg7)) (m ((c : Thread nD τ).loc main_arg8)) (ix2 (row t p) k) := by
  unfold iblk
  refine (read_blk3 c (V m c) t (ix2 p k)).trans ?_
  rw [emb3]
  exact congrFun (V_scales m c) _
theorem blk4 (c : Dev nD) (t : Fin cfg0.N) (p : Fin 128) (k : Fin 128) :
    (iblk m c 4 t : Vec Ideal S128x128 .f32) (ix2 p k) = (m ((c : Thread nD τ).loc main_arg3)) (ix2 p k) := by
  unfold iblk
  refine (read_blk4 c (V m c) t (ix2 p k)).trans ?_
  rw [emb4]
  exact congrFun (V_main_arg3 m c) _
theorem blk6 (c : Dev nD) (t : Fin cfg0.N) (p : Fin 128) (k : Fin 128) :
    (iblk m c 6 t : Vec Ideal S128x128 .f32) (ix2 p k) = (m ((c : Thread nD τ).loc main_arg5)) (ix2 p k) := by
  unfold iblk
  refine (read_blk6 c (V m c) t (ix2 p k)).trans ?_
  rw [emb6]
  exact congrFun (V_main_arg5 m c) _
theorem blk5 (c : Dev nD) (t : Fin cfg0.N) (q : Fin 128) :
    (iblk m c 5 t : Vec Ideal S1x128 .f32) (ix2 (0 : Fin 1) q) = (m ((c : Thread nD τ).loc main_arg4)) (ix1 q) := by
  unfold iblk
  refine (read_blk5 c (V m c) t (ix2 (0 : Fin 1) q)).trans ?_
  rw [emb5]
  exact (congrFun (V_bn m c) _).trans (bias_row _ q)
theorem blk7 (c : Dev nD) (t : Fin cfg0.N) (q : Fin 128) :
    (iblk m c 7 t : Vec Ideal S1x128 .f32) (ix2 (0 : Fin 1) q) = (m ((c : Thread nD τ).loc main_arg6)) (ix1 q) := by
  unfold iblk
  refine (read_blk7 c (V m c) t (ix2 (0 : Fin 1) q)).trans ?_
  rw [emb7]
  exact (congrFun (V_be m c) _).trans (bias_row _ q)

/-! ## What a point writes back -/

/-- Entry `(p, q)` of the body's value at point `t` is the specification's fused form at row `4000·t + p`. -/
theorem pay_at (c : Dev nD) (t : Fin cfg0.N) (p : Fin 4000) (q : Fin 128) :
    k0_pay1 (F := Ideal) (iblk m c 3 t) (iblk m c 1 t) (iblk m c 0 t) (iblk m c 4 t) (iblk m c 5 t) (iblk m c 2 t) (iblk m c 6 t) (iblk m c 7 t) (ix2 p q)
      = Gm m c (ix2 (row t p) q) := by
  refine (pay1_apply (iblk m c 3 t) (iblk m c 1 t) (iblk m c 0 t) (iblk m c 4 t) (iblk m c 5 t) (iblk m c 2 t) (iblk m c 6 t) (iblk m c 7 t) p q).trans ?_
  simp only [blk0, blk1, blk2, blk3, blk4, blk5, blk6, blk7, neigh_apply, es_apply, scales_apply0, scales_apply1, scales_apply2, two_word]
  show _ = Cert.Spec.fused _ _ _ _ _ _ _ _ (row t p) q
  unfold Cert.Spec.fused
  with_reducible rfl

/-- A block value that agrees entry by entry with an array's rows `4000·t …` is that array read through the output
    window's block at point `t`. -/
theorem cut_eq_read (t : Fin cfg0.N) (X : Vec Ideal S4000x128 .f32) (G : S100000x128.Idx → EReal)
    (h : ∀ (p : Fin 4000) (q : Fin 128), X (ix2 p q) = G (ix2 (row t p) q)) :
    (cfg0.win 8).cut (grid0.coords t) X = ((cfg0.win 8).blk t).view.read (Elt Ideal) G := by
  funext j
  obtain ⟨p, q, rfl⟩ : ∃ (p : Fin 4000) (q : Fin 128), j = ix2 p q := ⟨j 0, j 1, eq_ix2 j⟩
  show X (ix2 p q) = G (((cfg0.win 8).blk t).view.emb (ix2 p q))
  rw [emb8]
  exact h p q

/-- What point `t` writes back is block `t` of the specification's array. -/
theorem flushed8_eq (c : Dev nD) (t : Fin cfg0.N) :
    (dats m 0 c).flushed 8 t = ((cfg0.win 8).blk t).view.read (Elt Ideal) (Gm m c) := by
  show (cfg0.win 8).cut (grid0.coords t) ((dats m 0 c).after 8 t) = _
  rw [after0_8]
  unfold out0_8
  rw [View.canon_unit_zero hz]
  simp only [View.ld_unit_zero (S := S4000x128) hz, View.ld_unit_zero (S := S4000x3) hz, View.ld_unit_zero (S := S128x128) hz, View.ld_unit_zero (S := S1x128) hz]
  exact cut_eq_read t _ _ (fun p q => pay_at m c t p q)

/-! ## The blocks tile the array -/

theorem mem_blk8 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v31).slice (win0_8.rect t)).set ↔ _
  rw [View.set_slice_whole, Rect.mem_set_unit]
  exact Iff.rfl

/-- Row `n` lies in the block of point `n / 4000`. -/
theorem cover8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨e00, e01, e10, e11, e20, e21, e30, e31, e40, e41, e50, e51, e60, e61, e70, e71, e80, e81⟩ := idx_facts t
  have ht : t.val = (i 0).val / 4000 := rfl
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- The result array after the run is the specification's. -/
theorem final8 (c : Dev nD) : (dats m 0 c).arrAt 8 cfg0.N = Gm m c :=
  (dats m 0 c).arrAt_eq_of_cover 8 (Gm m c) (fun t _ => flushed8_eq m c t) cover8

/-! ## The run, read -/

/-- Every execution of the kernel's program ends with the result array at the specification's and the arguments unchanged. -/
theorem run : θ_run defs (onTc (τ := τ) (main (F := Ideal))) ⟨m, fun _ => 0, ρ⟩ fun r => ∀ c : Dev nD,
      r.2.mem ((c.tc : Thread nD τ).loc main_v31) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.KValue

end
-- ==== Proof.RefValue.lean ====
import proofs.«129473_j6605659701688_2_alg».proof.Proof.Gen.ReferenceIdeal.Read
import proofs.«129473_j6605659701688_2_alg».proof.Proof.Spec
import proofs.«129473_j6605659701688_2_alg».proof.Proof.LibScatterAddRows
import Idealize.ShloMosaic.Lib.IdealHost
import Idealize.ShloMosaic.PureOps.Ideal.Laws

/-!
  The reference's result, read at an index, is the layer-by-layer form of the specification.

  The reference computes, for node `n` and output feature `q`: the in-degree `deg` of `n` (a segment sum of ones over
  the edges, by destination), the sum `neigh` of the messages of the edges pointing at `n` (a row segment sum), the
  mean `(neigh + x) / (deg + 1)` pushed through the node layer's weights and bias, plus the node's own features through
  the same weights divided by `deg + 1`, plus the sum over those edges of the edge layer's outputs divided by
  `max(deg, 1)`. Each stage is read at an explicit index from the stages it depends on; the three segment sums are
  evaluated by the closed form of an accumulating scatter, once the dimension numbers of the two layouts (a vector
  of one scalar per edge; rows of 128 features per edge) are shown to place update `k` at the row its index names.
  The messages themselves (a gather of source rows times the edge weights) stay an opaque array: the statement is
  uniform in them.
-/

noncomputable section

namespace Cert.ReferenceIdeal.RefValue

open Cert.ReferenceIdeal Cert.ReferenceIdeal.Gen Cert.ReferenceIdeal.Read Idealize.ShloMosaic Idealize.ShloMosaic.ValueIdx

/-! ## What the dimension numbers of the two segment sums compute -/

section Dims
variable {w : ℕ}

/-- Row segment sum: the window of update `(k, c)` starts, on the row axis, at the row its index names. -/
theorem rows_start0 (idx : IVec S1600000x1 w) (k : Fin 1600000) (c : Fin 128) :
    scatter_S100000x128_S1600000x1_S1600000x128_1_0_0_1.start (ix2 k c) idx 0 = (idx (ix2 k (0 : Fin 1))).toInt := by
  unfold ScatterDims.start
  rw [dif_pos (show (0 : Fin S100000x128.rank) ∈ scatter_S100000x128_S1600000x1_S1600000x128_1_0_0_1.scatterDimsToOperandDims by decide)]
  refine congrArg (fun i => (idx i).toInt) (funext fun b => Fin.ext ?_)
  match b with
  | ⟨0, _⟩ => rfl
  | ⟨1, _⟩ => rfl

/-- … and, on the column axis, at column 0. -/
theorem rows_start1 (idx : IVec S1600000x1 w) (k : Fin 1600000) (c : Fin 128) :
    scatter_S100000x128_S1600000x1_S1600000x128_1_0_0_1.start (ix2 k c) idx 1 = 0 := by
  unfold ScatterDims.start
  rw [dif_neg (show ¬(1 : Fin S100000x128.rank) ∈ scatter_S100000x128_S1600000x1_S1600000x128_1_0_0_1.scatterDimsToOperandDims by decide)]

/-- The window coordinate on the row axis (an inserted one) is 0 … -/
theorem rows_window0 (k : Fin 1600000) (c : Fin 128) :
    scatter_S100000x128_S1600000x1_S1600000x128_1_0_0_1.window (ix2 k c) 0 = 0 := by
  unfold ScatterDims.window
  rw [dif_neg (show ¬(0 : Fin S100000x128.rank) ∈ scatter_S100000x128_S1600000x1_S1600000x128_1_0_0_1.sKept by decide)]

/-- … and on the column axis it is the update's column. -/
theorem rows_window1 (k : Fin 1600000) (c : Fin 128) :
    scatter_S100000x128_S1600000x1_S1600000x128_1_0_0_1.window (ix2 k c) 1 = c.val := by
  unfold ScatterDims.window
  rw [dif_pos (show (1 : Fin S100000x128.rank) ∈ scatter_S100000x128_S1600000x1_S1600000x128_1_0_0_1.sKept by decide)]
  rfl

/-- Vector segment sum: the window of update `k` starts at the element its index names … -/
theorem vec_start (idx : IVec S1600000x1 w) (k : Fin 1600000) :
    scatter_S100000_S1600000x1_S1600000_n_0_0_1.start (ix1 k) idx 0 = (idx (ix2 k (0 : Fin 1))).toInt := by
  unfold ScatterDims.start
  rw [dif_pos (show (0 : Fin S100000.rank) ∈ scatter_S100000_S1600000x1_S1600000_n_0_0_1.scatterDimsToOperandDims by decide)]
  refine congrArg (fun i => (idx i).toInt) (funext fun b => Fin.ext ?_)
  match b with
  | ⟨0, _⟩ => rfl
  | ⟨1, _⟩ => rfl

/-- … and there is no window coordinate. -/
theorem vec_window (k : Fin 1600000) :
    scatter_S100000_S1600000x1_S1600000_n_0_0_1.window (ix1 k) 0 = 0 := by
  unfold ScatterDims.window
  rw [dif_neg (show ¬(0 : Fin S100000.rank) ∈ scatter_S100000_S1600000x1_S1600000_n_0_0_1.sKept by decide)]

end Dims

/-! ## Index bookkeeping -/

/-- A rank-2 index with the given coordinates is `ix2` of them. -/
theorem idx2_ext {n0 n1 : ℕ} (f : (⟨2, ![n0, n1]⟩ : Shape).Idx) (a : Fin n0) (b : Fin n1)
    (h0 : (f 0).val = a.val) (h1 : (f 1).val = b.val) : f = ix2 a b :=
  funext fun d => Fin.ext (match d with
    | ⟨0, _⟩ => h0
    | ⟨1, _⟩ => h1)

/-- A rank-1 index with the given coordinate is `ix1` of it. -/
theorem idx1_ext {n0 : ℕ} (f : (⟨1, ![n0]⟩ : Shape).Idx) (a : Fin n0) (h0 : (f 0).val = a.val) : f = ix1 a :=
  funext fun d => Fin.ext (match d with
    | ⟨0, _⟩ => h0)

/-! ## The stages -/

/-- The messages: the gathered source rows times the edge weights (the reference's own stage, kept opaque). -/
def msgR (x0 : FVec Ideal S100000x128 .f32) (x2 : FVec Ideal S1600000 .f32) (x7 : IVec S1600000 32) :
    FVec Ideal S1600000x128 .f32 := Read.val_main_v20 (F := Ideal) x0 x2 x7

/-- The destination index of edge `e`, read signed. -/
def dstOf (x8 : IVec S1600000 32) : Fin 1600000 → Int := fun e => (x8 (ix1 e)).toInt

/-- The edges an index array, broadcast to one column, sends to node `n` are the edges whose destination is `n`. -/
theorem filter_hit (x8 : IVec S1600000 32) (n : Fin 100000) (v : IVec S1600000x1 32)
    (hv : ∀ k : Fin 1600000, v (ix2 k (0 : Fin 1)) = x8 (ix1 k)) :
    (Finset.univ.filter fun k : Fin 1600000 => (v (ix2 k (0 : Fin 1))).toInt = (n.val : Int))
      = Cert.Spec.hit (dstOf x8) n := by
  unfold Cert.Spec.hit dstOf
  exact Finset.filter_congr fun k _ => by rw [hv k]

theorem v2_at (x8 : IVec S1600000 32) (k : Fin 1600000) :
    val_main_v2 (F := Ideal) x8 (ix2 k (0 : Fin 1)) = x8 (ix1 k) := by
  rw [val_main_v2_apply, idx1_ext (idx_main_v2 (ix2 k (0 : Fin 1))) k rfl]

theorem v22_at (x8 : IVec S1600000 32) (k : Fin 1600000) :
    val_main_v22 (F := Ideal) x8 (ix2 k (0 : Fin 1)) = x8 (ix1 k) := by
  rw [val_main_v22_apply, idx1_ext (idx_main_v22 (ix2 k (0 : Fin 1))) k rfl]

theorem v40_at (x8 : IVec S1600000 32) (k : Fin 1600000) :
    val_main_v40 (F := Ideal) x8 (ix2 k (0 : Fin 1)) = x8 (ix1 k) := by
  rw [val_main_v40_apply, idx1_ext (idx_main_v40 (ix2 k (0 : Fin 1))) k rfl]

/-- At the extended reals the host's accumulating scatter is the exact segment sum. -/
theorem scatterAdd_ideal {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The in-degree: the segment sum of ones. -/
theorem v3_at (x8 : IVec S1600000 32) (n : Fin 100000) :
    val_main_v3 (F := Ideal) x8 (ix1 n) = 0 + ∑ _e ∈ Cert.Spec.hit (dstOf x8) n, (1 : EReal) := by
  unfold val_main_v3
  rw [scatterAdd_ideal, Cert.LibScatterAddRows.scatterAdd_vec _ _ (vec_start _) vec_window,
    filter_hit x8 n _ (v2_at x8), val_main_v1_apply, val_main_cst_0_apply, Ideal.ofBits_def, Ideal.ofBits_zero_f32]
  refine congrArg (fun t : EReal => 0 + t) (Finset.sum_congr rfl fun k _ => ?_)
  rw [val_main_v0_apply, val_main_cst_apply, Ideal.ofBits_def, Ideal.ofBits_one_f32]

/-- The summed messages. -/
theorem v23_at (x0 : FVec Ideal S100000x128 .f32) (x2 : FVec Ideal S1600000 .f32) (x7 x8 : IVec S1600000 32)
    (n : Fin 100000) (k : Fin 128) :
    val_main_v23 (F := Ideal) x0 x2 x7 x8 (ix2 n k) = 0 + ∑ e ∈ Cert.Spec.hit (dstOf x8) n, msgR x0 x2 x7 (ix2 e k) := by
  unfold msgR val_main_v23
  rw [scatterAdd_ideal,
    Cert.LibScatterAddRows.scatterAdd_rows _ _ (rows_start0 _) (rows_start1 _) rows_window0 rows_window1,
    filter_hit x8 n _ (v22_at x8), val_main_v21_apply, val_main_cst_3_apply, Ideal.ofBits_def, Ideal.ofBits_zero_f32]

/-- The summed edge outputs' summand: the edge layer of one edge. -/
theorem v38_at (x1 : FVec Ideal S1600000x128 .f32) (x5 : FVec Ideal S128x128 .f32) (x6 : FVec Ideal S128 .f32)
    (e : Fin 1600000) (q : Fin 128) :
    val_main_v38 (F := Ideal) x1 x5 x6 (ix2 e q) = (∑ k : Fin 128, x1 (ix2 e k) * x5 (ix2 q k)) + x6 (ix1 q) := by
  rw [val_main_v38_apply, val_main_v35_apply, val_main_v37_apply, val_main_v36_apply,
    idx1_ext (idx_main_v36 (idx_main_v37 (ix2 e q))) q rfl, Ideal.addf_def]
  refine congrArg (fun t : EReal => t + x6 (ix1 q)) (Finset.sum_congr rfl fun k _ => ?_)
  rw [val_main_v34_apply, idx2_ext (lidx_main_v35 (ix2 e q) k) e k rfl rfl,
    idx2_ext (idx_main_v34 (ridx_main_v35 (ix2 e q) k)) q k rfl rfl]

/-- The summed edge outputs. -/
theorem v41_at (x1 : FVec Ideal S1600000x128 .f32) (x5 : FVec Ideal S128x128 .f32) (x6 : FVec Ideal S128 .f32)
    (x8 : IVec S1600000 32) (n : Fin 100000) (q : Fin 128) :
    val_main_v41 (F := Ideal) x1 x5 x6 x8 (ix2 n q)
      = 0 + ∑ e ∈ Cert.Spec.hit (dstOf x8) n, ((∑ k : Fin 128, x1 (ix2 e k) * x5 (ix2 q k)) + x6 (ix1 q)) := by
  unfold val_main_v41
  rw [scatterAdd_ideal,
    Cert.LibScatterAddRows.scatterAdd_rows _ _ (rows_start0 _) (rows_start1 _) rows_window0 rows_window1,
    filter_hit x8 n _ (v40_at x8), val_main_v39_apply, val_main_cst_4_apply, Ideal.ofBits_def, Ideal.ofBits_zero_f32]
  exact congrArg (fun t : EReal => 0 + t) (Finset.sum_congr rfl fun e _ => v38_at x1 x5 x6 e q)

/-- The in-degree plus one. -/
theorem v5_at (x8 : IVec S1600000 32) (n : Fin 100000) :
    val_main_v5 (F := Ideal) x8 (ix1 n) = (0 + ∑ _e ∈ Cert.Spec.hit (dstOf x8) n, (1 : EReal)) + 1 := by
  rw [val_main_v5_apply, v3_at, val_main_v4_apply, val_main_cst_1_apply, Ideal.ofBits_def, Ideal.ofBits_one_f32,
    Ideal.addf_def]

theorem v9_at (x8 : IVec S1600000 32) (n : Fin 100000) (q : Fin 128) :
    val_main_v9 (F := Ideal) x8 (ix2 n q) = (0 + ∑ _e ∈ Cert.Spec.hit (dstOf x8) n, (1 : EReal)) + 1 := by
  rw [val_main_v9_apply, val_main_v8_apply, idx1_ext (idx_main_v8 (idx_main_v9 (ix2 n q))) n rfl, v5_at]

theorem v26_at (x8 : IVec S1600000 32) (n : Fin 100000) (q : Fin 128) :
    val_main_v26 (F := Ideal) x8 (ix2 n q) = (0 + ∑ _e ∈ Cert.Spec.hit (dstOf x8) n, (1 : EReal)) + 1 := by
  rw [val_main_v26_apply, val_main_v25_apply, idx1_ext (idx_main_v25 (idx_main_v26 (ix2 n q))) n rfl, v5_at]

/-- The in-degree, at least one. -/
theorem v45_at (x8 : IVec S1600000 32) (n : Fin 100000) (q : Fin 128) :
    val_main_v45 (F := Ideal) x8 (ix2 n q) = max (0 + ∑ _e ∈ Cert.Spec.hit (dstOf x8) n, (1 : EReal)) 1 := by
  rw [val_main_v45_apply, val_main_v44_apply, idx1_ext (idx_main_v44 (idx_main_v45 (ix2 n q))) n rfl,
    val_main_v43_apply, v3_at, val_main_v42_apply, val_main_cst_5_apply, Ideal.ofBits_def, Ideal.ofBits_one_f32,
    Ideal.maximumf_def]

/-- The node's own features through the node layer's weights. -/
theorem v7_at (x0 : FVec Ideal S100000x128 .f32) (x3 : FVec Ideal S128x128 .f32) (n : Fin 100000) (q : Fin 128) :
    val_main_v7 (F := Ideal) x0 x3 (ix2 n q) = ∑ k : Fin 128, x0 (ix2 n k) * x3 (ix2 q k) := by
  rw [val_main_v7_apply]
  refine Finset.sum_congr rfl fun k _ => ?_
  rw [val_main_v6_apply, idx2_ext (lidx_main_v7 (ix2 n q) k) n k rfl rfl,
    idx2_ext (idx_main_v6 (ridx_main_v7 (ix2 n q) k)) q k rfl rfl]

/-- The mean of the messages and the node's own features. -/
theorem v27_at (x0 : FVec Ideal S100000x128 .f32) (x2 : FVec Ideal S1600000 .f32) (x7 x8 : IVec S1600000 32)
    (n : Fin 100000) (k : Fin 128) :
    val_main_v27 (F := Ideal) x0 x2 x7 x8 (ix2 n k)
      = Ideal.div ((0 + ∑ e ∈ Cert.Spec.hit (dstOf x8) n, msgR x0 x2 x7 (ix2 e k)) + x0 (ix2 n k))
          ((0 + ∑ _e ∈ Cert.Spec.hit (dstOf x8) n, (1 : EReal)) + 1) := by
  rw [val_main_v27_apply, val_main_v24_apply, v23_at, v26_at, Ideal.hostDivf_def, Ideal.addf_def]

/-- The mean through the node layer's weights. -/
theorem v29_at (x0 : FVec Ideal S100000x128 .f32) (x2 : FVec Ideal S1600000 .f32) (x3 : FVec Ideal S128x128 .f32)
    (x7 x8 : IVec S1600000 32) (n : Fin 100000) (q : Fin 128) :
    val_main_v29 (F := Ideal) x0 x2 x3 x7 x8 (ix2 n q)
      = ∑ k : Fin 128, Ideal.div ((0 + ∑ e ∈ Cert.Spec.hit (dstOf x8) n, msgR x0 x2 x7 (ix2 e k)) + x0 (ix2 n k))
          ((0 + ∑ _e ∈ Cert.Spec.hit (dstOf x8) n, (1 : EReal)) + 1) * x3 (ix2 q k) := by
  rw [val_main_v29_apply]
  refine Finset.sum_congr rfl fun k _ => ?_
  rw [idx2_ext (lidx_main_v29 (ix2 n q) k) n k rfl rfl, v27_at, val_main_v28_apply,
    idx2_ext (idx_main_v28 (ridx_main_v29 (ix2 n q) k)) q k rfl rfl]

/-- The node layer's bias. -/
theorem v31_at (x4 : FVec Ideal S128 .f32) (n : Fin 100000) (q : Fin 128) :
    val_main_v31 (F := Ideal) x4 (ix2 n q) = x4 (ix1 q) := by
  rw [val_main_v31_apply, val_main_v30_apply, idx1_ext (idx_main_v30 (idx_main_v31 (ix2 n q))) q rfl]

/-! ## The result -/

/-- The reference's result at `(n, q)` is the layer-by-layer form of the specification. -/
theorem ref_apply (x0 : FVec Ideal S100000x128 .f32) (x1 : FVec Ideal S1600000x128 .f32) (x2 : FVec Ideal S1600000 .f32)
    (x3 : FVec Ideal S128x128 .f32) (x4 : FVec Ideal S128 .f32) (x5 : FVec Ideal S128x128 .f32)
    (x6 : FVec Ideal S128 .f32) (x7 x8 : IVec S1600000 32) (n : Fin 100000) (q : Fin 128) :
    Read.val_main_v47 (F := Ideal) x0 x1 x2 x3 x4 x5 x6 x7 x8 (ix2 n q)
      = Cert.Spec.layered (msgR x0 x2 x7) x1 x0 x3 x5 x4 x6 (dstOf x8) n q := by
  unfold Cert.Spec.layered
  rw [val_main_v47_apply, val_main_v33_apply, val_main_v32_apply, val_main_v46_apply, val_main_v10_apply,
    v29_at, v31_at, v7_at, v9_at, v41_at, v45_at]
  rw [Ideal.addf_def, Ideal.addf_def, Ideal.addf_def, Ideal.hostDivf_def, Ideal.hostDivf_def]

end Cert.ReferenceIdeal.RefValue

end
-- ==== Proof.FiniteArgs.lean ====
import proofs.«129473_j6605659701688_2_alg».proof.Pre_finite_inputs
import Idealize.ShloMosaic.PureOps.Ideal
import Idealize.ShloMosaic.Lib.ValueIdx
import Idealize.ShloMosaic.Lib.ReduceAll

/-!
  From the stated precondition — each of the seven float arrays satisfies `all (|x| < +∞)`, and the
  seven answers are and-ed — to the plain fact that every float argument is a real number, at the
  instance where floats are extended reals.

  The chain: the and of `i1` words is 1 only if each word is 1; a reduction by `and` over all axes is 1
  only if every element is 1; the element is the comparison `max x (-x) < +∞`; and an extended real
  whose absolute value lies below `+∞` is neither `+∞` nor `-∞`, hence the image of a real.
-/

namespace Cert.FiniteArgs

open Idealize.ShloMosaic

/-- The word `0x7F800000` read as a float32 is `+∞`. -/
theorem inf_word : Ideal.ofBits .f32 0x7F800000#32 = (⊤ : EReal) := by
  simp [Ideal.ofBits, Ideal.ieee]

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An `i1` word made from a Boolean is 1 only if the Boolean is true. -/
theorem ofBool_eq_one : ∀ b : Bool, BitVec.ofBool b = 1#1 → b = true := by decide

/-- The result shape of a reduction over every axis has exactly one index. -/
instance : Subsingleton Cert.Pre_finite_inputs.S_.Idx := ⟨fun a b => funext fun d => d.elim0⟩

/-- One array: if `all (|x| < +∞)`, printed as a reduction by `and` over all axes of the comparison
    of `|x|` with the broadcast word of `+∞`, is 1, then every element of `x` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu _ e i
  have h2 : BitVec.ofBool (decide (max (x i) (-(x i)) < Ideal.ofBits .f32 0x7F800000#32)) = 1#1 := hi
  have h3 := of_decide_eq_true (ofBool_eq_one _ h2)
  rw [inf_word] at h3
  exact real_of_abs_lt_top _ h3

open Cert.Pre_finite_inputs in
/-- The precondition gives: every element of each of the seven float arguments is a real number. -/
theorem of_pre [Cert.Pre_finite_inputs.Facts]
    (x0 : FVec Ideal Cert.Pre_finite_inputs.S100000x128 .f32) (x1 : FVec Ideal Cert.Pre_finite_inputs.S1600000x128 .f32)
    (x2 : FVec Ideal Cert.Pre_finite_inputs.S1600000 .f32) (x3 : FVec Ideal Cert.Pre_finite_inputs.S128x128 .f32)
    (x4 : FVec Ideal Cert.Pre_finite_inputs.S128 .f32) (x5 : FVec Ideal Cert.Pre_finite_inputs.S128x128 .f32)
    (x6 : FVec Ideal Cert.Pre_finite_inputs.S128 .f32) (x7 x8 : IVec Cert.Pre_finite_inputs.S1600000 32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ValueIdx.ix0
  dsimp only [Cert.Pre_finite_inputs.fn, Cert.Pre_finite_inputs.fn_part1, Idealize.ShloMosaic.andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3,
    all_real x4 _ _ _ e4, all_real x5 _ _ _ e5, all_real x6 _ _ _ e6⟩

end Cert.FiniteArgs
-- ==== Proof.lean ====
/-
  The certificate of the fused graph layer against its layer-by-layer reference.

  Both programs gather each edge's source row, weight it, and sum the weighted rows, the raw edge features and a count
  over the edges that point at each node. The kernel's program then applies the two weight matrices AFTER those sums,
  in one pipelined region over blocks of 4000 nodes; the reference applies the edge matrix before its sum and the node
  matrix to the normalised rows. At the extended reals, on finite inputs, the two results are one function of the
  arguments (`Cert.Spec.fused_eq_layered`): the kernel's run ends at its fused form (`KValue.run`), the reference's run at
  its layer-by-layer form (`RefValue.ref_apply`). The three frames are the two programs' frame runs and the reference's
  run with its result dropped; the idealization rewrote no operation, so it is the program's own text read at the
  extended reals.
-/
import proofs.«129473_j6605659701688_2_alg».proof.Defs
import proofs.«129473_j6605659701688_2_alg».proof.Proof.Gen.Kernel
import proofs.«129473_j6605659701688_2_alg».proof.Proof.Gen.KernelIdeal
import proofs.«129473_j6605659701688_2_alg».proof.Proof.Gen.ReferenceIdeal
import proofs.«129473_j6605659701688_2_alg».proof.Proof.Gen.ReferenceIdeal.Run
import proofs.«129473_j6605659701688_2_alg».proof.Proof.Gen.ReferenceIdeal.Read
import proofs.«129473_j6605659701688_2_alg».proof.Proof.Gen.Pre_finite_inputs
import proofs.«129473_j6605659701688_2_alg».proof.Proof.FrameK
import proofs.«129473_j6605659701688_2_alg».proof.Proof.FrameKI
import proofs.«129473_j6605659701688_2_alg».proof.Proof.KernelValue
import proofs.«129473_j6605659701688_2_alg».proof.Proof.RefValue
import proofs.«129473_j6605659701688_2_alg».proof.Proof.FiniteArgs
import proofs.«129473_j6605659701688_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's messages are the kernel program's: the same gather and product, spelt in each program's own names. -/
theorem msg_same (x0 : FVec Ideal Cert.KernelIdeal.S100000x128 .f32) (x2 : FVec Ideal Cert.KernelIdeal.S1600000 .f32) (x7 : IVec Cert.KernelIdeal.S1600000 32) :
    Cert.ReferenceIdeal.RefValue.msgR x0 x2 x7 = Cert.KernelIdeal.HostVals.msg (F := Ideal) x0 x2 x7 := rfl

/-- From memories that agree on the arguments, the kernel's program ends at the fused form of the specification and
    the reference at the layer-by-layer form; finite inputs make the two one function. -/
theorem algebraic : Cert.algebraic_KernelIdeal_ReferenceIdeal := by
  intro m ρ m' ρ' hpre hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v47_eq, a0, a1, a2, a3, a4, a5, a6, a7, a8]
  obtain ⟨h0, h1, h2, h3, h4, h5, h6⟩ := Cert.FiniteArgs.of_pre _ _ _ _ _ _ _ _ _ (hpre c)
  funext i
  obtain ⟨n, q, rfl⟩ : ∃ (n : Fin 100000) (q : Fin 128), i = ix2 n q := ⟨i 0, i 1, eq_ix2 i⟩
  rw [Cert.ReferenceIdeal.RefValue.ref_apply, msg_same]
  exact (Cert.Spec.fused_eq_layered _ _ _ _ _ _ _ _ (Cert.KernelIdeal.HostReads.msg_real _ _ _ h0 h2) h1 h0 h3 h5 h4 h6 n q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
